-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x64 .f32) (main_arg8 : FVec F S64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 121
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000, .f32⟩
  | .hbm, ⟨51, _⟩ => ⟨S800000, .f32⟩
  | .hbm, ⟨52, _⟩ => ⟨S50000, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x1, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x1, .f32⟩
  | .hbm, ⟨107, _⟩ => ⟨S800000x128, .f32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S1x64, .f32⟩
  | .hbm, ⟨118, _⟩ => ⟨S50000x64, .f32⟩
  | .hbm, ⟨119, _⟩ => ⟨S1x64, .f32⟩
  | .hbm, ⟨120, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v47) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v66) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v85) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 269
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S_, .f32⟩
  | 89 => ⟨S50000, .f32⟩
  | 90 => ⟨S50000, .i1⟩
  | 91 => ⟨S_, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x1, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000, .f32⟩
  | 7 => ⟨S50000x1, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000, .f32⟩
  | 72 => ⟨S50000x1, .f32⟩
  | 73 => ⟨S50000x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .i1⟩
  | 90 => ⟨S_, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x1, .f32⟩
  | 127 => ⟨S800000x64, .f32⟩
  | _ => ⟨S50000x128, .f32⟩

abbrev hbmTy0_2 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S50000, .f32⟩
  | 6 => ⟨S50000x1, .f32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_19 : Ref sig .tc := ⟨.hbm, 118, rfl⟩
abbrev main_v80 : Ref sig .tc := ⟨.hbm, 119, rfl⟩
abbrev main_v81 : Ref sig .tc := ⟨.hbm, 120, rfl⟩
abbrev main_c_20 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_21 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call3_cst : Ref sig .tc := ⟨.hbm, 142, rfl⟩
abbrev main_call3_v0 : Ref sig .tc := ⟨.hbm, 143, rfl⟩
abbrev main_v101 : Ref sig .tc := ⟨.hbm, 144, rfl⟩
abbrev main_v102 : Ref sig .tc := ⟨.hbm, 145, rfl⟩
abbrev main_cst_22 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_23 : Ref sig .tc := ⟨.hbm, 150, rfl⟩
abbrev main_v106 : Ref sig .tc := ⟨.hbm, 151, rfl⟩
abbrev main_v107 : Ref sig .tc := ⟨.hbm, 152, rfl⟩
abbrev main_cst_24 : Ref sig .tc := ⟨.hbm, 153, rfl⟩
abbrev main_v108 : Ref sig .tc := ⟨.hbm, 154, rfl⟩
abbrev main_v109 : Ref sig .tc := ⟨.hbm, 155, rfl⟩
abbrev main_cst_25 : Ref sig .tc := ⟨.hbm, 156, rfl⟩
abbrev main_v110 : Ref sig .tc := ⟨.hbm, 157, rfl⟩
abbrev main_v111 : Ref sig .tc := ⟨.hbm, 158, rfl⟩
abbrev main_cst_26 : Ref sig .tc := ⟨.hbm, 159, rfl⟩
abbrev main_call4_v0 : Ref sig .tc := ⟨.hbm, 160, rfl⟩
abbrev main_call4_v1 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_c_28 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_c_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_c_31 : Ref sig .tc := ⟨.hbm, 183, rfl⟩
abbrev main_v129 : Ref sig .tc := ⟨.hbm, 184, rfl⟩
abbrev main_v130 : Ref sig .tc := ⟨.hbm, 185, rfl⟩
abbrev main_c_32 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_34 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_35 : Ref sig .tc := ⟨.hbm, 212, rfl⟩
abbrev main_v154 : Ref sig .tc := ⟨.hbm, 213, rfl⟩
abbrev main_v155 : Ref sig .tc := ⟨.hbm, 214, rfl⟩
abbrev main_cst_36 : Ref sig .tc := ⟨.hbm, 215, rfl⟩
abbrev main_v156 : Ref sig .tc := ⟨.hbm, 216, rfl⟩
abbrev main_v157 : Ref sig .tc := ⟨.hbm, 217, rfl⟩
abbrev main_cst_37 : Ref sig .tc := ⟨.hbm, 218, rfl⟩
abbrev main_v158 : Ref sig .tc := ⟨.hbm, 219, rfl⟩
abbrev main_v159 : Ref sig .tc := ⟨.hbm, 220, rfl⟩
abbrev main_cst_38 : Ref sig .tc := ⟨.hbm, 221, rfl⟩
abbrev main_call5_v0 : Ref sig .tc := ⟨.hbm, 222, rfl⟩
abbrev main_call5_v1 : Ref sig .tc := ⟨.hbm, 223, rfl⟩
abbrev main_v160 : Ref sig .tc := ⟨.hbm, 224, rfl⟩
abbrev main_c_39 : Ref sig .tc := ⟨.hbm, 225, rfl⟩
abbrev main_v161 : Ref sig .tc := ⟨.hbm, 226, rfl⟩
abbrev main_v162 : Ref sig .tc := ⟨.hbm, 227, rfl⟩
abbrev main_c_40 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_c_41 : Ref sig .tc := ⟨.hbm, 235, rfl⟩
abbrev main_v169 : Ref sig .tc := ⟨.hbm, 236, rfl⟩
abbrev main_v170 : Ref sig .tc := ⟨.hbm, 237, rfl⟩
abbrev main_c_42 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_c_43 : Ref sig .tc := ⟨.hbm, 245, rfl⟩
abbrev main_v177 : Ref sig .tc := ⟨.hbm, 246, rfl⟩
abbrev main_v178 : Ref sig .tc := ⟨.hbm, 247, rfl⟩
abbrev main_c_44 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_cst_45 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its two results named. Every weakly fair execution of the program terminates, and
  in every final state each result array holds what the last boundary of the program's segments holds there —
  the fold of the host stretches and of the four regions' write-backs from the launch memory — while the argument
  arrays are as launched. The argument is the frame's: the launch over the program's segments, the last thread state
  read against the final state; here the reading keeps the two result buffers as well.
-/
import proofs.«117158_j11854109737492_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_v89) = W10 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => ⟨(h c _ (mem_uc main_v87 (by decide))), (h c _ (mem_uc main_v89 (by decide))),
      (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunAll

end
-- ==== Proof.Spec.lean ====
/-
  A graph convolution network with weighted edges, self-loops and symmetric normalisation, entry by entry on the
  extended reals, in the two arrangements the two programs compute.

  The graph is a list of M weighted edges over N nodes. Edge e has weight ea e, a source row gs e and a target row
  gd e (both read clamped into the nodes), and a target read as an integer with no clamping, sc e: the edge is
  accumulated into node n exactly when sc e = n. The degree of n is the sum of the weights accumulated into n, plus
  one for the self-loop; dinv n is the degree to the power -1/2 where the degree is positive and zero elsewhere; the
  factor of edge e is dinv (gs e) · ea e · dinv (gd e) and the self-loop's factor of node n is dinv n · dinv n.

  One aggregation of a feature matrix f is, at node n and feature q,
      Σ_{e accumulated into n} f (gs e, q) · w e   +   f (n, q) · s n .
  A layer is an aggregation and a matrix product with a weight matrix, plus a bias, through an activation. The first
  arrangement aggregates the features and multiplies the aggregated rows by the weights; the second multiplies the
  features by the weights and aggregates the products.
-/
import Idealize.ShloMosaic.PureOps.Ideal
import Idealize.ShloMosaic.PureOps.Ideal.Laws

noncomputable section

namespace Cert.Spec

open Idealize.ShloMosaic
open scoped BigOperators

/-- The float words of zero, one and minus one half, as both programs spell them. -/
abbrev zeroW : EReal := Ideal.ofBits .f32 0x00000000#32
abbrev oneW : EReal := Ideal.ofBits .f32 0x3F800000#32
abbrev mhalfW : EReal := Ideal.ofBits .f32 0xBF000000#32

/-- An extended real that is a real number. -/
def IsR (x : EReal) : Prop := ∃ r : ℝ, x = (r : EReal)

variable {N M : Nat}

/-! ## The normalising factors -/

section factors

variable (gs gd : Fin M → Fin N) (sc : Fin M → Int) (ea : Fin M → EReal)

/-- The degree of node n: the weights accumulated into zeros along the edge list, plus one. -/
def deg (n : Fin N) : EReal :=
  (zeroW + ∑ e : Fin M, if sc e = (n.val : Int) then ea e else 0) + oneW

/-- The degree to the power -1/2 where the degree is positive, zero elsewhere. -/
def dinv (n : Fin N) : EReal :=
  Scalar.select (Ideal.cmp .ogt (deg sc ea n) zeroW) (Ideal.pow (deg sc ea n) mhalfW) zeroW

/-- The factor of edge e. -/
def nrm (e : Fin M) : EReal := dinv sc ea (gs e) * ea e * dinv sc ea (gd e)

/-- The factor of node n's self-loop. -/
def d2 (n : Fin N) : EReal := dinv sc ea n * dinv sc ea n

end factors

/-! ## One layer, in the two arrangements -/

section layer

variable (gs : Fin M → Fin N) (sc : Fin M → Int) (w : Fin M → EReal) (s : Fin N → EReal)

/-- The rows of f picked along the edge list, each times its edge's factor, accumulated into zeros; the node's own
    row times its self-loop factor added. -/
def agg {D : Nat} (f : Fin N → Fin D → EReal) (n : Fin N) (q : Fin D) : EReal :=
  (zeroW + ∑ e : Fin M, if sc e = (n.val : Int) then f (gs e) q * w e else 0) + f n q * s n

/-- A matrix product, entry (n, q). -/
def mm {K D : Nat} (x : Fin N → Fin K → EReal) (W : Fin K → Fin D → EReal) (n : Fin N) (q : Fin D) : EReal :=
  ∑ k : Fin K, x n k * W k q

/-- The rectifier. -/
def relu (v : EReal) : EReal := max v zeroW

/-- First arrangement: aggregate, then multiply by the weights. -/
def layerK {K D : Nat} (act : EReal → EReal) (f : Fin N → Fin K → EReal) (W : Fin K → Fin D → EReal) (b : Fin D → EReal)
    (n : Fin N) (q : Fin D) : EReal :=
  act (mm (agg gs sc w s f) W n q + b q)

/-- Second arrangement: multiply by the weights, then aggregate. -/
def layerR {K D : Nat} (act : EReal → EReal) (f : Fin N → Fin K → EReal) (W : Fin K → Fin D → EReal) (b : Fin D → EReal)
    (n : Fin N) (q : Fin D) : EReal :=
  act (agg gs sc w s (mm f W) n q + b q)

end layer

/-! ## The network: two rectified layers and a linear head -/

section net

variable (gs : Fin M → Fin N) (sc : Fin M → Int) (w : Fin M → EReal) (s : Fin N → EReal)
variable {K0 K1 K2 D : Nat}

def netK (x : Fin N → Fin K0 → EReal) (W1 : Fin K0 → Fin K1 → EReal) (b1 : Fin K1 → EReal)
    (W2 : Fin K1 → Fin K2 → EReal) (b2 : Fin K2 → EReal) (W3 : Fin K2 → Fin D → EReal) (b3 : Fin D → EReal) :
    Fin N → Fin D → EReal :=
  layerK gs sc w s id (layerK gs sc w s relu (layerK gs sc w s relu x W1 b1) W2 b2) W3 b3

def netR (x : Fin N → Fin K0 → EReal) (W1 : Fin K0 → Fin K1 → EReal) (b1 : Fin K1 → EReal)
    (W2 : Fin K1 → Fin K2 → EReal) (b2 : Fin K2 → EReal) (W3 : Fin K2 → Fin D → EReal) (b3 : Fin D → EReal) :
    Fin N → Fin D → EReal :=
  layerR gs sc w s id (layerR gs sc w s relu (layerR gs sc w s relu x W1 b1) W2 b2) W3 b3

end net

end Cert.Spec

end
-- ==== Proof.Net.lean ====
/-
  The two arrangements of the network at the programs' extents: 50000 nodes, 800000 edges, arrays read as functions
  of their coordinates, and the edge list's positions read off the 2 × 800000 integer array the programs take.

  Row 0 of the integer array holds each edge's source, row 1 its target. A position used to PICK a row is first
  wrapped (a negative position p is read as p + 50000) and then clamped into the rows; a position used to ACCUMULATE
  into a row is read as it stands, and an edge whose target is not a row is dropped.
-/
import proofs.«117158_j11854109737492_1_alg».proof.Proof.Spec
import Idealize.ShloMosaic.Lib.ValueIdx
import Idealize.ShloMosaic.Lib.Pipeline.Value

noncomputable section

namespace Cert.Net

open Idealize.ShloMosaic Idealize.ShloMosaic.ValueIdx
open scoped BigOperators

/-! ## Arrays as functions of their coordinates -/

/-- A matrix read by row and column. -/
def mat {a b : Nat} (x : (⟨2, ![a, b]⟩ : Shape).Idx → EReal) : Fin a → Fin b → EReal := fun i j => x (ix2 i j)

/-- A vector read by position. -/
def vec {a : Nat} (x : (⟨1, ![a]⟩ : Shape).Idx → EReal) : Fin a → EReal := fun i => x (ix1 i)

/-! ## The edge list's positions -/

/-- List entry e's position, read as a signed integer and clamped into the 50000 rows. -/
def posC (idx : IVec ⟨2, ![800000, 1]⟩ 32) (e : Fin 800000) : Fin 50000 :=
  ⟨min (idx (ix2 e (0 : Fin 1))).toInt.toNat (50000 - 1), by omega⟩

/-- List entry e's position, read as a signed integer as it stands. -/
def posZ (idx : IVec ⟨2, ![800000, 1]⟩ 32) (e : Fin 800000) : Int := (idx (ix2 e (0 : Fin 1))).toInt

theorem slices0 : (⟨2, ![2, 800000]⟩ : Shape).Slices ![0, 0] ⟨2, ![1, 800000]⟩ := by decide
theorem slices1 : (⟨2, ![2, 800000]⟩ : Shape).Slices ![1, 0] ⟨2, ![1, 800000]⟩ := by decide
theorem casts : (⟨2, ![1, 800000]⟩ : Shape).ShapeCasts ⟨1, ![800000]⟩ := by decide
theorem bcastS : (⟨0, ![]⟩ : Shape).BroadcastsInDim ⟨1, ![800000]⟩ (![] : Fin 0 → Fin 1) := by decide
theorem bcastC : (⟨1, ![800000]⟩ : Shape).BroadcastsInDim ⟨2, ![800000, 1]⟩ (![0] : Fin 1 → Fin 2) := by decide

/-- Row r of the integer array as a vector of 800000 positions. -/
def srcVec (ei : IVec ⟨2, ![2, 800000]⟩ 32) : IVec ⟨1, ![800000]⟩ 32 :=
  shapeCast _ (extractStridedSlice ⟨2, ![1, 800000]⟩ ![0, 0] ei slices0) casts
def dstVec (ei : IVec ⟨2, ![2, 800000]⟩ 32) : IVec ⟨1, ![800000]⟩ 32 :=
  shapeCast _ (extractStridedSlice ⟨2, ![1, 800000]⟩ ![1, 0] ei slices1) casts

/-- A vector of positions wrapped (a negative p read as p + 50000) and laid out as a column: the positions a pick
    uses. -/
def wrapCol (v : IVec ⟨1, ![800000]⟩ 32) : IVec ⟨2, ![800000, 1]⟩ 32 :=
  broadcastInDim ⟨2, ![800000, 1]⟩ ![0] bcastC
    (select (cmpi .slt v (broadcastInDim ⟨1, ![800000]⟩ ![] bcastS (constantI ⟨0, ![]⟩ 32 0#32)))
      (addi v (broadcastInDim ⟨1, ![800000]⟩ ![] bcastS (constantI ⟨0, ![]⟩ 32 50000#32))) v)

/-- A vector of positions laid out as a column as it stands: the positions an accumulation uses. -/
def col (v : IVec ⟨1, ![800000]⟩ 32) : IVec ⟨2, ![800000, 1]⟩ 32 :=
  broadcastInDim ⟨2, ![800000, 1]⟩ ![0] bcastC v

/-- The sources, for picking. -/
def srcIdx (ei : IVec ⟨2, ![2, 800000]⟩ 32) : IVec ⟨2, ![800000, 1]⟩ 32 := wrapCol (srcVec ei)
/-- The targets, for picking. -/
def dstIdxG (ei : IVec ⟨2, ![2, 800000]⟩ 32) : IVec ⟨2, ![800000, 1]⟩ 32 := wrapCol (dstVec ei)
/-- The targets, for accumulating. -/
def dstIdxS (ei : IVec ⟨2, ![2, 800000]⟩ 32) : IVec ⟨2, ![800000, 1]⟩ 32 := col (dstVec ei)

/-! ## The factors and the network over the programs' arrays -/

section

variable (si gi di : IVec ⟨2, ![800000, 1]⟩ 32) (ea : (⟨1, ![800000]⟩ : Shape).Idx → EReal)

/-- dinv of node n. -/
def dinvOf : Fin 50000 → EReal := Spec.dinv (posZ di) (vec ea)
/-- The factor of edge e. -/
def wOf : Fin 800000 → EReal := Spec.nrm (posC si) (posC gi) (posZ di) (vec ea)
/-- The factor of node n's self-loop. -/
def sOf : Fin 50000 → EReal := Spec.d2 (posZ di) (vec ea)

/-- One aggregation of a feature matrix. -/
def aggOf {D : Nat} (f : Fin 50000 → Fin D → EReal) : Fin 50000 → Fin D → EReal :=
  Spec.agg (posC si) (posZ di) (wOf si gi di ea) (sOf di ea) f

variable {D : Nat}
  (x : (⟨2, ![50000, 128]⟩ : Shape).Idx → EReal)
  (W1 : (⟨2, ![128, 128]⟩ : Shape).Idx → EReal) (b1 : (⟨1, ![128]⟩ : Shape).Idx → EReal)
  (W2 : (⟨2, ![128, 128]⟩ : Shape).Idx → EReal) (b2 : (⟨1, ![128]⟩ : Shape).Idx → EReal)
  (W3 : (⟨2, ![128, D]⟩ : Shape).Idx → EReal) (b3 : (⟨1, ![D]⟩ : Shape).Idx → EReal)

/-- The network, aggregating before each matrix product. -/
def outK : Fin 50000 → Fin D → EReal :=
  Spec.netK (posC si) (posZ di) (wOf si gi di ea) (sOf di ea) (mat x) (mat W1) (vec b1) (mat W2) (vec b2) (mat W3) (vec b3)

/-- The network, aggregating after each matrix product. -/
def outR : Fin 50000 → Fin D → EReal :=
  Spec.netR (posC si) (posZ di) (wOf si gi di ea) (sOf di ea) (mat x) (mat W1) (vec b1) (mat W2) (vec b2) (mat W3) (vec b3)

end

end Cert.Net

end
-- ==== Proof.ChainA.lean ====
import proofs.«117158_j11854109737492_1_alg».proof.Proof.Gen.KernelIdeal.Frame
import proofs.«117158_j11854109737492_1_alg».proof.Proof.Net
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Net

variable (m : (ℓ : Loc nD τ sig) → Buf (Elt Ideal) ℓ) (ρ : Dev nD → PrngReg)

/-! ## The argument arrays, as the program's devices hold them at launch -/

abbrev ei (c : Dev nD) : IVec ⟨2, ![2, 800000]⟩ 32 := m ((c : Thread nD τ).loc main_arg1)
abbrev ea (c : Dev nD) : FVec Ideal ⟨1, ![800000]⟩ .f32 := m ((c : Thread nD τ).loc main_arg2)

/-! ## The host stretches as terms -/

/-- The degree array: the weights accumulated into zeros by target, plus one. -/
def degT (dv : IVec ⟨1, ![800000]⟩ 32) (w : FVec Ideal ⟨1, ![800000]⟩ .f32) : FVec Ideal S50000 .f32 :=
  addf (Host.scatterAdd scatter_S50000_S800000x1_S800000_n_0_0_1
      (broadcastInDim S50000 ![] bcast_S_S50000 (constant S_ .f32 0x00000000#32)) (col dv) w)
    (broadcastInDim S50000 ![] bcast_S_S50000 (constant S_ .f32 0x3F800000#32))

/-- dinv: the degree to the power -1/2 where it is positive, zero elsewhere. -/
def dinvT (dv : IVec ⟨1, ![800000]⟩ 32) (w : FVec Ideal ⟨1, ![800000]⟩ .f32) : FVec Ideal S50000 .f32 :=
  select (cmpf .ogt (degT dv w) (broadcastInDim S50000 ![] bcast_S_S50000 (constant S_ .f32 0x00000000#32)))
    (Host.powf (degT dv w) (broadcastInDim S50000 ![] bcast_S_S50000 (constant S_ .f32 0xBF000000#32)))
    (broadcastInDim S50000 ![] bcast_S_S50000 (constant S_ .f32 0x00000000#32))

/-- The edges' factors from dinv, the positions and the weights. -/
def nrmT (d : FVec Ideal S50000 .f32) (sv dv : IVec ⟨1, ![800000]⟩ 32) (w : FVec Ideal ⟨1, ![800000]⟩ .f32) :
    FVec Ideal S800000 .f32 :=
  mulf (mulf (Host.gather gather_S50000_S800000x1_S800000_n_0_n_n_0_1_1 d (wrapCol sv)) w)
    (Host.gather gather_S50000_S800000x1_S800000_n_0_n_n_0_1_1 d (wrapCol dv))

/-- One aggregation of a feature array. -/
def aggT (h : FVec Ideal S50000x128 .f32) (sv dv : IVec ⟨1, ![800000]⟩ 32) (wA : FVec Ideal S800000 .f32)
    (sA : FVec Ideal S50000 .f32) : FVec Ideal S50000x128 .f32 :=
  addf (Host.scatterAdd scatter_S50000x128_S800000x1_S800000x128_1_0_0_1
      (broadcastInDim S50000x128 ![] bcast_S_S50000x128 (constant S_ .f32 0x00000000#32)) (col dv)
      (mulf (Host.gather gather_S50000x128_S800000x1_S800000x128_1_0_n_n_0_1_1128 h (wrapCol sv))
        (broadcastInDim S800000x128 ![0, 1] bcast_S800000x1_S800000x128_0_1
          (broadcastInDim S800000x1 ![0] bcast_S800000_S800000x1_0 wA))))
    (mulf h (broadcastInDim S50000x128 ![0, 1] bcast_S50000x1_S50000x128_0_1
      (broadcastInDim S50000x1 ![0] bcast_S50000_S50000x1_0 sA)))

/-! ## The first two stretches: positions, degree, dinv -/

set_option maxHeartbeats 4000000 in
theorem w1_vals (c : Dev nD) :
    W1 m ρ c (Proc.devRef .tc main_v1) = srcVec (ei m c)
    ∧ W1 m ρ c (Proc.devRef .tc main_v3) = dstVec (ei m c)
    ∧ W1 m ρ c (Proc.devRef .tc main_v10) = cmpf .ogt (degT (dstVec (ei m c)) (ea m c))
        (broadcastInDim S50000 ![] bcast_S_S50000 (constant S_ .f32 0x00000000#32))
    ∧ W1 m ρ c (Proc.devRef .tc main_v12) = Host.powf (degT (dstVec (ei m c)) (ea m c))
        (broadcastInDim S50000 ![] bcast_S_S50000 (constant S_ .f32 0xBF000000#32))
    ∧ W1 m ρ c (Proc.devRef .tc main_cst_3) = (constant (F := Ideal) S_ .f32 0x00000000#32 : FVec Ideal S_ .f32)
    ∧ W1 m ρ c (Proc.devRef .tc main_arg0) = m ((c : Thread nD τ).loc main_arg0)
    ∧ W1 m ρ c (Proc.devRef .tc main_arg2) = ea m c
    ∧ W1 m ρ c (Proc.devRef .tc main_arg3) = m ((c : Thread nD τ).loc main_arg3)
    ∧ W1 m ρ c (Proc.devRef .tc main_arg4) = m ((c : Thread nD τ).loc main_arg4) := by
  dsimp only [W1]
  refine ⟨?_, ?_, ?_, ?_, ?_, ?_, ?_, ?_, ?_⟩ <;> after_results <;> try rfl

section
variable (Vv : Valuation τ sig (Elt Ideal))

set_option maxHeartbeats 4000000 in
/-- The select of the three-operation stretch, from any contents. -/
theorem a01_v13 :
    StableHlo.after hostOps0_1 Vv (Proc.devRef .tc main_v13)
      = select (Vv (Proc.devRef .tc main_v10)) (Vv (Proc.devRef .tc main_v12))
          (broadcastInDim S50000 ![] bcast_S_S50000 (Vv (Proc.devRef .tc main_cst_3))) := by
  after_results
  rfl

set_option maxHeartbeats 4000000 in
theorem a01_keep :
    StableHlo.after hostOps0_1 Vv (Proc.devRef .tc main_v1) = Vv (Proc.devRef .tc main_v1)
    ∧ StableHlo.after hostOps0_1 Vv (Proc.devRef .tc main_v3) = Vv (Proc.devRef .tc main_v3)
    ∧ StableHlo.after hostOps0_1 Vv (Proc.devRef .tc main_arg0) = Vv (Proc.devRef .tc main_arg0)
    ∧ StableHlo.after hostOps0_1 Vv (Proc.devRef .tc main_arg2) = Vv (Proc.devRef .tc main_arg2)
    ∧ StableHlo.after hostOps0_1 Vv (Proc.devRef .tc main_arg3) = Vv (Proc.devRef .tc main_arg3)
    ∧ StableHlo.after hostOps0_1 Vv (Proc.devRef .tc main_arg4) = Vv (Proc.devRef .tc main_arg4) := by
  refine ⟨?_, ?_, ?_, ?_, ?_, ?_⟩ <;> after_results

end

theorem w2_vals (c : Dev nD) :
    W2 m ρ c (Proc.devRef .tc main_v1) = srcVec (ei m c)
    ∧ W2 m ρ c (Proc.devRef .tc main_v3) = dstVec (ei m c)
    ∧ W2 m ρ c (Proc.devRef .tc main_v13) = dinvT (dstVec (ei m c)) (ea m c)
    ∧ W2 m ρ c (Proc.devRef .tc main_arg0) = m ((c : Thread nD τ).loc main_arg0)
    ∧ W2 m ρ c (Proc.devRef .tc main_arg2) = ea m c
    ∧ W2 m ρ c (Proc.devRef .tc main_arg3) = m ((c : Thread nD τ).loc main_arg3)
    ∧ W2 m ρ c (Proc.devRef .tc main_arg4) = m ((c : Thread nD τ).loc main_arg4) := by
  obtain ⟨h1, h3, h10, h12, hc3, ha0, ha2, ha3, ha4⟩ := w1_vals m ρ c
  obtain ⟨k1, k3, k0, k2, k3', k4⟩ := a01_keep (W1 m ρ c)
  refine ⟨k1.trans h1, k3.trans h3, ?_, k0.trans ha0, k2.trans ha2, k3'.trans ha3, k4.trans ha4⟩
  refine (a01_v13 (W1 m ρ c)).trans ?_
  rw [h10, h12, hc3]
  rfl

end Cert.KernelIdeal.Chain

end
-- ==== Proof.ChainS.lean ====
import proofs.«117158_j11854109737492_1_alg».proof.Proof.Gen.KernelIdeal.Frame
import proofs.«117158_j11854109737492_1_alg».proof.Proof.ChainA
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Net

/-! ## The later host stretches as terms, from any entry contents -/

variable (Vv : Valuation τ sig (Elt Ideal))

set_option maxHeartbeats 8000000 in
/-- The stretch before the first region: the edges' factors, dinv · dinv, the first aggregation, the first bias row. -/
theorem s0_vals :
    StableHlo.after hostOps0_2 Vv (Proc.devRef .tc main_v29)
      = nrmT (Vv (Proc.devRef .tc main_v13)) (Vv (Proc.devRef .tc main_v1)) (Vv (Proc.devRef .tc main_v3)) (Vv (Proc.devRef .tc main_arg2))
    ∧ StableHlo.after hostOps0_2 Vv (Proc.devRef .tc main_v30)
      = (mulf (Vv (Proc.devRef .tc main_v13) : FVec Ideal S50000 .f32) (Vv (Proc.devRef .tc main_v13)) : FVec Ideal S50000 .f32)
    ∧ StableHlo.after hostOps0_2 Vv (Proc.devRef .tc main_v47)
      = aggT (Vv (Proc.devRef .tc main_arg0)) (Vv (Proc.devRef .tc main_v1)) (Vv (Proc.devRef .tc main_v3))
          (nrmT (Vv (Proc.devRef .tc main_v13)) (Vv (Proc.devRef .tc main_v1)) (Vv (Proc.devRef .tc main_v3)) (Vv (Proc.devRef .tc main_arg2)))
          (mulf (Vv (Proc.devRef .tc main_v13) : FVec Ideal S50000 .f32) (Vv (Proc.devRef .tc main_v13)))
    ∧ StableHlo.after hostOps0_2 Vv (Proc.devRef .tc main_v48)
      = (shapeCast S1x128 (Vv (Proc.devRef .tc main_arg4) : FVec Ideal S128 .f32) shapeCasts_S128_S1x128 : FVec Ideal S1x128 .f32) := by
  refine ⟨?_, ?_, ?_, ?_⟩ <;> after_results_simp <;> rfl

set_option maxHeartbeats 8000000 in
theorem s0_keep :
    StableHlo.after hostOps0_2 Vv (Proc.devRef .tc main_v1) = Vv (Proc.devRef .tc main_v1)
    ∧ StableHlo.after hostOps0_2 Vv (Proc.devRef .tc main_v3) = Vv (Proc.devRef .tc main_v3)
    ∧ StableHlo.after hostOps0_2 Vv (Proc.devRef .tc main_arg3) = Vv (Proc.devRef .tc main_arg3) := by
  refine ⟨?_, ?_, ?_⟩ <;> after_results_simp

set_option maxHeartbeats 8000000 in
/-- The stretch between the first and the second region. -/
theorem s1_vals :
    StableHlo.after hostOps1 Vv (Proc.devRef .tc main_v66)
      = aggT (Vv (Proc.devRef .tc main_v49)) (Vv (Proc.devRef .tc main_v1)) (Vv (Proc.devRef .tc main_v3)) (Vv (Proc.devRef .tc main_v29)) (Vv (Proc.devRef .tc main_v30))
    ∧ StableHlo.after hostOps1 Vv (Proc.devRef .tc main_v67)
      = (shapeCast S1x128 (Vv (Proc.devRef .tc main_arg6) : FVec Ideal S128 .f32) shapeCasts_S128_S1x128 : FVec Ideal S1x128 .f32) := by
  refine ⟨?_, ?_⟩ <;> after_results_simp <;> rfl

set_option maxHeartbeats 8000000 in
theorem s1_keep :
    StableHlo.after hostOps1 Vv (Proc.devRef .tc main_v1) = Vv (Proc.devRef .tc main_v1)
    ∧ StableHlo.after hostOps1 Vv (Proc.devRef .tc main_v3) = Vv (Proc.devRef .tc main_v3)
    ∧ StableHlo.after hostOps1 Vv (Proc.devRef .tc main_v29) = Vv (Proc.devRef .tc main_v29)
    ∧ StableHlo.after hostOps1 Vv (Proc.devRef .tc main_v30) = Vv (Proc.devRef .tc main_v30)
    ∧ StableHlo.after hostOps1 Vv (Proc.devRef .tc main_arg5) = Vv (Proc.devRef .tc main_arg5) := by
  refine ⟨?_, ?_, ?_, ?_, ?_⟩ <;> after_results_simp

set_option maxHeartbeats 8000000 in
/-- The stretch between the second and the third region. -/
theorem s2_vals :
    StableHlo.after hostOps2 Vv (Proc.devRef .tc main_v85)
      = aggT (Vv (Proc.devRef .tc main_v68)) (Vv (Proc.devRef .tc main_v1)) (Vv (Proc.devRef .tc main_v3)) (Vv (Proc.devRef .tc main_v29)) (Vv (Proc.devRef .tc main_v30))
    ∧ StableHlo.after hostOps2 Vv (Proc.devRef .tc main_v86)
      = (shapeCast S1x64 (Vv (Proc.devRef .tc main_arg8) : FVec Ideal S64 .f32) shapeCasts_S64_S1x64 : FVec Ideal S1x64 .f32) := by
  refine ⟨?_, ?_⟩ <;> after_results_simp <;> rfl

set_option maxHeartbeats 8000000 in
theorem s2_keep :
    StableHlo.after hostOps2 Vv (Proc.devRef .tc main_arg7) = Vv (Proc.devRef .tc main_arg7) := by
  after_results_simp

set_option maxHeartbeats 8000000 in
/-- The one operation between the third and the fourth region: the last bias row. -/
theorem s3_vals :
    StableHlo.after hostOps3 Vv (Proc.devRef .tc main_v88)
      = (shapeCast S1x64 (Vv (Proc.devRef .tc main_arg10) : FVec Ideal S64 .f32) shapeCasts_S64_S1x64 : FVec Ideal S1x64 .f32) := by
  after_results_simp <;> rfl

set_option maxHeartbeats 8000000 in
theorem s3_keep :
    StableHlo.after hostOps3 Vv (Proc.devRef .tc main_v85) = Vv (Proc.devRef .tc main_v85)
    ∧ StableHlo.after hostOps3 Vv (Proc.devRef .tc main_v87) = Vv (Proc.devRef .tc main_v87)
    ∧ StableHlo.after hostOps3 Vv (Proc.devRef .tc main_arg9) = Vv (Proc.devRef .tc main_arg9) := by
  refine ⟨?_, ?_, ?_⟩ <;> after_results_simp

end Cert.KernelIdeal.Chain

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.HostRead.lean ====
/-
  The host operations both programs compute the graph's factors and one aggregation with, read at an index at the
  ideal values, for the programs' 50000 nodes and 800000 edges and any feature width D.

  * the degree: the edge weights accumulated into zeros by target, plus one;
  * dinv: the degree to the power -1/2 where the degree is positive, zero elsewhere (a comparison and a select);
  * an edge's factor: dinv picked at the source, times the weight, times dinv picked at the target;
  * one aggregation: the feature rows picked by source, each times its edge's factor spread over the row, accumulated
    into zeros by target, plus the features times dinv · dinv spread over the rows.
-/
import proofs.«117158_j11854109737492_1_alg».proof.Proof.Net
import proofs.«117158_j11854109737492_1_alg».proof.Proof.LibIndexOps
import proofs.«117158_j11854109737492_1_alg».proof.Proof.LibHostRead

noncomputable section

namespace Cert.HostRead

open Idealize.ShloMosaic Idealize.ShloMosaic.ValueIdx Cert.Net
open scoped BigOperators

/-- The degree array: the weights accumulated into zeros by target, plus one. -/
def degArr (sdv : ScatterDims ⟨1, ![50000]⟩ ⟨2, ![800000, 1]⟩ ⟨1, ![800000]⟩)
    (hb : (⟨0, ![]⟩ : Shape).BroadcastsInDim ⟨1, ![50000]⟩ (![] : Fin 0 → Fin 1))
    (di : IVec ⟨2, ![800000, 1]⟩ 32) (ea : FVec Ideal ⟨1, ![800000]⟩ .f32) : FVec Ideal ⟨1, ![50000]⟩ .f32 :=
  addf (Host.scatterAdd sdv (broadcastInDim ⟨1, ![50000]⟩ ![] hb (constant ⟨0, ![]⟩ .f32 0x00000000#32)) di ea)
    (broadcastInDim ⟨1, ![50000]⟩ ![] hb (constant ⟨0, ![]⟩ .f32 0x3F800000#32))

theorem degArr_apply (sdv : ScatterDims ⟨1, ![50000]⟩ ⟨2, ![800000, 1]⟩ ⟨1, ![800000]⟩)
    (hsdv : ∃ wf, sdv = LibIndexOps.vecScatter 50000 800000 wf)
    (hb : (⟨0, ![]⟩ : Shape).BroadcastsInDim ⟨1, ![50000]⟩ (![] : Fin 0 → Fin 1))
    (di : IVec ⟨2, ![800000, 1]⟩ 32) (ea : FVec Ideal ⟨1, ![800000]⟩ .f32) (n : Fin 50000) :
    degArr sdv hb di ea (ix1 n) = Spec.deg (posZ di) (vec ea) n := by
  obtain ⟨wf, rfl⟩ := hsdv
  unfold degArr Spec.deg
  rw [addf_apply, LibIndexOps.scatterAdd_vec_apply]
  exact congrArg₂ (· + ·) (congrArg₂ (· + ·) rfl (Finset.sum_congr rfl fun e _ => rfl)) rfl

/-- dinv as the programs compute it from the degree array, read at node n. -/
theorem dinv_apply (sdv : ScatterDims ⟨1, ![50000]⟩ ⟨2, ![800000, 1]⟩ ⟨1, ![800000]⟩)
    (hsdv : ∃ wf, sdv = LibIndexOps.vecScatter 50000 800000 wf)
    (hb : (⟨0, ![]⟩ : Shape).BroadcastsInDim ⟨1, ![50000]⟩ (![] : Fin 0 → Fin 1))
    (di : IVec ⟨2, ![800000, 1]⟩ 32) (ea : FVec Ideal ⟨1, ![800000]⟩ .f32)
    (zc : FVec Ideal ⟨1, ![50000]⟩ .f32) (hzc : ∀ j, zc j = Spec.zeroW) (n : Fin 50000) :
    select (cmpf .ogt (degArr sdv hb di ea) (broadcastInDim ⟨1, ![50000]⟩ ![] hb (constant ⟨0, ![]⟩ .f32 0x00000000#32)))
        (Host.powf (degArr sdv hb di ea) (broadcastInDim ⟨1, ![50000]⟩ ![] hb (constant ⟨0, ![]⟩ .f32 0xBF000000#32))) zc (ix1 n)
      = dinvOf di ea n := by
  have hd := degArr_apply sdv hsdv hb di ea n
  generalize degArr sdv hb di ea = dg at hd ⊢
  have e1 : ∀ w : BitVec 32, (broadcastInDim ⟨1, ![50000]⟩ ![] hb (constant (F := Ideal) ⟨0, ![]⟩ .f32 w)) (ix1 n) = Ideal.ofBits .f32 w :=
    fun w => rfl
  have e2 : ∀ (a b : FVec Ideal ⟨1, ![50000]⟩ .f32), Host.powf a b (ix1 n) = Ideal.pow (a (ix1 n)) (b (ix1 n)) := fun a b => rfl
  rw [select_apply, cmpf_apply, hzc, e2, e1, e1, hd]
  unfold dinvOf Spec.dinv
  generalize Spec.deg (posZ di) (vec ea) n = x
  rfl

/-- An edge's factor: dinv picked at the source, times the weight, times dinv picked at the target. -/
theorem nrm_apply (gdv : GatherDims ⟨1, ![50000]⟩ ⟨2, ![800000, 1]⟩ ⟨1, ![800000]⟩)
    (hgdv : ∃ wf, gdv = LibIndexOps.vecGather 50000 800000 wf)
    (dA : FVec Ideal ⟨1, ![50000]⟩ .f32) (si gi : IVec ⟨2, ![800000, 1]⟩ 32) (ea : FVec Ideal ⟨1, ![800000]⟩ .f32)
    (e : Fin 800000) :
    mulf (mulf (Host.gather gdv dA si) ea) (Host.gather gdv dA gi) (ix1 e)
      = vec dA (posC si e) * vec ea e * vec dA (posC gi e) := by
  obtain ⟨wf, rfl⟩ := hgdv
  rw [mulf_apply, mulf_apply, LibIndexOps.gather_vec_apply (by norm_num), LibIndexOps.gather_vec_apply (by norm_num)]
  rfl

/-- One aggregation read at (n, q). -/
theorem agg_apply {D : Nat}
    (gd : GatherDims ⟨2, ![50000, D]⟩ ⟨2, ![800000, 1]⟩ ⟨2, ![800000, D]⟩)
    (hgd : ∃ wf, gd = LibIndexOps.rowsGather 50000 800000 D wf)
    (sd : ScatterDims ⟨2, ![50000, D]⟩ ⟨2, ![800000, 1]⟩ ⟨2, ![800000, D]⟩)
    (hsd : ∃ wf, sd = LibIndexOps.rowsScatter 50000 800000 D wf)
    (hb0 : (⟨0, ![]⟩ : Shape).BroadcastsInDim ⟨2, ![50000, D]⟩ (![] : Fin 0 → Fin 2))
    (hb1 : (⟨1, ![800000]⟩ : Shape).BroadcastsInDim ⟨2, ![800000, 1]⟩ (![0] : Fin 1 → Fin 2))
    (hb2 : (⟨2, ![800000, 1]⟩ : Shape).BroadcastsInDim ⟨2, ![800000, D]⟩ (![0, 1] : Fin 2 → Fin 2))
    (hb3 : (⟨1, ![50000]⟩ : Shape).BroadcastsInDim ⟨2, ![50000, 1]⟩ (![0] : Fin 1 → Fin 2))
    (hb4 : (⟨2, ![50000, 1]⟩ : Shape).BroadcastsInDim ⟨2, ![50000, D]⟩ (![0, 1] : Fin 2 → Fin 2))
    (h : FVec Ideal ⟨2, ![50000, D]⟩ .f32) (si di : IVec ⟨2, ![800000, 1]⟩ 32)
    (wA : FVec Ideal ⟨1, ![800000]⟩ .f32) (sA : FVec Ideal ⟨1, ![50000]⟩ .f32) (n : Fin 50000) (q : Fin D) :
    addf (Host.scatterAdd sd (broadcastInDim ⟨2, ![50000, D]⟩ ![] hb0 (constant ⟨0, ![]⟩ .f32 0x00000000#32)) di
        (mulf (Host.gather gd h si)
          (broadcastInDim ⟨2, ![800000, D]⟩ ![0, 1] hb2 (broadcastInDim ⟨2, ![800000, 1]⟩ ![0] hb1 wA))))
      (mulf h (broadcastInDim ⟨2, ![50000, D]⟩ ![0, 1] hb4 (broadcastInDim ⟨2, ![50000, 1]⟩ ![0] hb3 sA))) (ix2 n q)
      = Spec.agg (posC si) (posZ di) (vec wA) (vec sA) (mat h) n q := by
  obtain ⟨wfg, rfl⟩ := hgd
  obtain ⟨wfs, rfl⟩ := hsd
  unfold Spec.agg
  rw [addf_apply, LibIndexOps.scatterAdd_rows_apply, mulf_apply, LibHostRead.bcast_a1_ab_apply, LibHostRead.bcast_a_a1_apply]
  refine congrArg₂ (· + ·) (congrArg₂ (· + ·) rfl (Finset.sum_congr rfl fun e _ => ?_)) rfl
  rw [mulf_apply, LibIndexOps.gather_rows_apply (by norm_num), LibHostRead.bcast_a1_ab_apply, LibHostRead.bcast_a_a1_apply]
  rfl

end Cert.HostRead

end
-- ==== Proof.ChainRead.lean ====
/-
  The kernel program's host terms read at an index at the ideal values: dinv of a node, the edges' factors and the
  self-loops' factors as functions, one aggregation of a feature array, and a bias laid out as a one-row matrix.
  And the bridge from a matrix product of an aggregated array with the weights, plus the bias row, to one layer of the
  specification's first arrangement.
-/
import proofs.«117158_j11854109737492_1_alg».proof.Proof.ChainA
import proofs.«117158_j11854109737492_1_alg».proof.Proof.HostRead

noncomputable section

namespace Cert.KernelIdeal.Chain

open Cert.KernelIdeal Cert.KernelIdeal.Gen
open Idealize.ShloMosaic Idealize.ShloMosaic.ValueIdx
open Cert.Net
open scoped BigOperators

/-! ## The factors -/

section factors

variable (dv sv : IVec ⟨1, ![800000]⟩ 32) (w : FVec Ideal ⟨1, ![800000]⟩ .f32)

/-- dinv of node n. -/
theorem dinvT_apply (n : Fin 50000) : dinvT dv w (ix1 n) = dinvOf (col dv) w n :=
  HostRead.dinv_apply scatter_S50000_S800000x1_S800000_n_0_0_1 ⟨_, rfl⟩ bcast_S_S50000 (col dv) w
    (broadcastInDim S50000 ![] bcast_S_S50000 (constant (F := Ideal) S_ .f32 0x00000000#32)) (fun _ => rfl) n

/-- dinv as a function of the node. -/
theorem dinvT_vec : vec (dinvT dv w) = dinvOf (col dv) w :=
  funext (dinvT_apply dv w)

/-- The factor of edge e. -/
theorem nrmT_apply (e : Fin 800000) :
    nrmT (dinvT dv w) sv dv w (ix1 e) = wOf (wrapCol sv) (wrapCol dv) (col dv) w e := by
  refine (HostRead.nrm_apply gather_S50000_S800000x1_S800000_n_0_n_n_0_1_1 ⟨_, rfl⟩
    (dinvT dv w) (wrapCol sv) (wrapCol dv) w e).trans ?_
  unfold wOf Spec.nrm
  rw [dinvT_vec]
  unfold dinvOf
  rfl

/-- The edges' factors as a function of the edge. -/
theorem nrmT_vec : vec (nrmT (dinvT dv w) sv dv w) = wOf (wrapCol sv) (wrapCol dv) (col dv) w :=
  funext (nrmT_apply dv sv w)

/-- The factor of node n's self-loop. -/
theorem d2_apply (n : Fin 50000) : mulf (dinvT dv w) (dinvT dv w) (ix1 n) = sOf (col dv) w n := by
  unfold sOf Spec.d2
  rw [mulf_apply, dinvT_apply]
  unfold dinvOf
  rfl

/-- The self-loops' factors as a function of the node. -/
theorem d2_vec : vec (mulf (dinvT dv w) (dinvT dv w)) = sOf (col dv) w :=
  funext (d2_apply dv w)

/-- One aggregation read at (n, k). -/
theorem aggT_apply (h : FVec Ideal S50000x128 .f32) (wA : FVec Ideal S800000 .f32) (sA : FVec Ideal S50000 .f32)
    (n : Fin 50000) (k : Fin 128) :
    aggT h sv dv wA sA (ix2 n k)
      = Spec.agg (posC (wrapCol sv)) (posZ (col dv)) (vec wA) (vec sA) (mat h) n k :=
  HostRead.agg_apply gather_S50000x128_S800000x1_S800000x128_1_0_n_n_0_1_1128 ⟨_, rfl⟩
    scatter_S50000x128_S800000x1_S800000x128_1_0_0_1 ⟨_, rfl⟩
    bcast_S_S50000x128 bcast_S800000_S800000x1_0 bcast_S800000x1_S800000x128_0_1 bcast_S50000_S50000x1_0
    bcast_S50000x1_S50000x128_0_1 h (wrapCol sv) (col dv) wA sA n k

end factors

/-! ## A bias laid out as a one-row matrix -/

/-- A vector reshaped to one row reads, at (0, q), entry q. -/
theorem row_apply {a : Nat} {α : Type} (b : (⟨1, ![a]⟩ : Shape).Idx → α)
    (h : (⟨1, ![a]⟩ : Shape).ShapeCasts ⟨2, ![1, a]⟩) (q : Fin a) :
    shapeCast ⟨2, ![1, a]⟩ b h (ix2 (0 : Fin 1) q) = b (ix1 q) :=
  shapeCast_apply b h (ix2 (0 : Fin 1) q) (ix1 q) (by
    rw [Shape.rowMajor_val_one, Shape.rowMajor_val_two]
    show q.val = 0 * a + q.val
    omega)

theorem row128_apply (b : FVec Ideal S128 .f32) (q : Fin 128) :
    shapeCast S1x128 b shapeCasts_S128_S1x128 (ix2 (0 : Fin 1) q) = b (ix1 q) :=
  row_apply b shapeCasts_S128_S1x128 q

theorem row64_apply (b : FVec Ideal S64 .f32) (q : Fin 64) :
    shapeCast S1x64 b shapeCasts_S64_S1x64 (ix2 (0 : Fin 1) q) = b (ix1 q) :=
  row_apply b shapeCasts_S64_S1x64 q

/-! ## From a product with the weights plus the bias row to one layer of the first arrangement -/

section bridge

variable {M : Nat} (gs : Fin M → Fin 50000) (sc : Fin M → Int) (wv : Fin M → EReal) (s : Fin 50000 → EReal)
  (f : Fin 50000 → Fin 128 → EReal) (A : S50000x128.Idx → EReal)

/-- A rectified layer: the aggregated array times the weights, plus the bias row, through the rectifier. -/
theorem layerK_relu_bridge (W : S128x128.Idx → EReal) (brow : S1x128.Idx → EReal) (bv : Fin 128 → EReal)
    (hA : ∀ n k, A (ix2 n k) = Spec.agg gs sc wv s f n k) (hb : ∀ q, brow (ix2 (0 : Fin 1) q) = bv q)
    (n : Fin 50000) (q : Fin 128) :
    Spec.relu ((∑ k : Fin 128, A (ix2 n k) * W (ix2 k q)) + brow (ix2 (0 : Fin 1) q))
      = Spec.layerK gs sc wv s Spec.relu f (mat W) bv n q := by
  have hs : (∑ k : Fin 128, A (ix2 n k) * W (ix2 k q)) = ∑ k : Fin 128, Spec.agg gs sc wv s f n k * mat W k q :=
    Finset.sum_congr rfl fun k _ => by rw [hA n k]; rfl
  unfold Spec.layerK Spec.mm
  rw [hb q, hs]

/-- A linear layer: the aggregated array times the weights, plus the bias row. -/
theorem layerK_id_bridge (W : S128x64.Idx → EReal) (brow : S1x64.Idx → EReal) (bv : Fin 64 → EReal)
    (hA : ∀ n k, A (ix2 n k) = Spec.agg gs sc wv s f n k) (hb : ∀ q, brow (ix2 (0 : Fin 1) q) = bv q)
    (n : Fin 50000) (q : Fin 64) :
    (∑ k : Fin 128, A (ix2 n k) * W (ix2 k q)) + brow (ix2 (0 : Fin 1) q)
      = Spec.layerK gs sc wv s id f (mat W) bv n q := by
  have hs : (∑ k : Fin 128, A (ix2 n k) * W (ix2 k q)) = ∑ k : Fin 128, Spec.agg gs sc wv s f n k * mat W k q :=
    Finset.sum_congr rfl fun k _ => by rw [hA n k]; rfl
  unfold Spec.layerK Spec.mm
  rw [id_eq, hb q, hs]

end bridge

end Cert.KernelIdeal.Chain

end
-- ==== Proof.ChainArgs.lean ====
import proofs.«117158_j11854109737492_1_alg».proof.Proof.Gen.KernelIdeal.Frame
import proofs.«117158_j11854109737492_1_alg».proof.Proof.ChainA
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Net

variable (m : (ℓ : Loc nD τ sig) → Buf (Elt Ideal) ℓ) (ρ : Dev nD → PrngReg)

/-! ## Arguments no stretch and no region writes -/

/-- No operation of a stretch writes the buffer: by the operations' write sets, one inequality of references each. -/
macro "not_written" h:ident : tactic =>
  `(tactic| exact StableHlo.after_of_forall_not_mem (b := _) _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem w3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = m ((c : Thread nD τ).loc main_arg5) := rfl
theorem w3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = m ((c : Thread nD τ).loc main_arg6) := rfl
theorem w3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by not_written hostOps0_2
    _ = W1 m ρ c (Proc.devRef .tc main_arg7) := by not_written hostOps0_1
    _ = W0 m ρ c (Proc.devRef .tc main_arg7) := by not_written hostOps0
    _ = m ((c : Thread nD τ).loc main_arg7) := rfl
theorem w3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by not_written hostOps0_2
    _ = W1 m ρ c (Proc.devRef .tc main_arg8) := by not_written hostOps0_1
    _ = W0 m ρ c (Proc.devRef .tc main_arg8) := by not_written hostOps0
    _ = m ((c : Thread nD τ).loc main_arg8) := rfl
theorem w3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by not_written hostOps0_2
    _ = W1 m ρ c (Proc.devRef .tc main_arg9) := by not_written hostOps0_1
    _ = W0 m ρ c (Proc.devRef .tc main_arg9) := by not_written hostOps0
    _ = m ((c : Thread nD τ).loc main_arg9) := rfl
theorem w3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by not_written hostOps0_2
    _ = W1 m ρ c (Proc.devRef .tc main_arg10) := by not_written hostOps0_1
    _ = W0 m ρ c (Proc.devRef .tc main_arg10) := by not_written hostOps0
    _ = m ((c : Thread nD τ).loc main_arg10) := rfl

theorem w5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by not_written hostOps1
    _ = W3 m ρ c (Proc.devRef .tc main_arg5) := W4_of_ne m ρ c main_arg5 (by decide)
    _ = m ((c : Thread nD τ).loc main_arg5) := w3_arg5 m ρ c
theorem w5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by not_written hostOps1
    _ = W3 m ρ c (Proc.devRef .tc main_arg6) := W4_of_ne m ρ c main_arg6 (by decide)
    _ = m ((c : Thread nD τ).loc main_arg6) := w3_arg6 m ρ c
theorem w5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by not_written hostOps1
    _ = W3 m ρ c (Proc.devRef .tc main_arg7) := W4_of_ne m ρ c main_arg7 (by decide)
    _ = m ((c : Thread nD τ).loc main_arg7) := w3_arg7 m ρ c
theorem w5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by not_written hostOps1
    _ = W3 m ρ c (Proc.devRef .tc main_arg8) := W4_of_ne m ρ c main_arg8 (by decide)
    _ = m ((c : Thread nD τ).loc main_arg8) := w3_arg8 m ρ c
theorem w5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by not_written hostOps1
    _ = W3 m ρ c (Proc.devRef .tc main_arg9) := W4_of_ne m ρ c main_arg9 (by decide)
    _ = m ((c : Thread nD τ).loc main_arg9) := w3_arg9 m ρ c
theorem w5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := by not_written hostOps1
    _ = W3 m ρ c (Proc.devRef .tc main_arg10) := W4_of_ne m ρ c main_arg10 (by decide)
    _ = m ((c : Thread nD τ).loc main_arg10) := w3_arg10 m ρ c

theorem w7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := by not_written hostOps2
    _ = W5 m ρ c (Proc.devRef .tc main_arg7) := W6_of_ne m ρ c main_arg7 (by decide)
    _ = m ((c : Thread nD τ).loc main_arg7) := w5_arg7 m ρ c
theorem w7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by not_written hostOps2
    _ = W5 m ρ c (Proc.devRef .tc main_arg8) := W6_of_ne m ρ c main_arg8 (by decide)
    _ = m ((c : Thread nD τ).loc main_arg8) := w5_arg8 m ρ c
theorem w7_arg9 (c : Dev nD) : W7 m ρ c (Proc.devRef .tc main_arg9) = m ((c : Thread nD τ).loc main_arg9) :=
  calc W7 m ρ c (Proc.devRef .tc main_arg9)
    _ = W6 m ρ c (Proc.devRef .tc main_arg9) := by not_written hostOps2
    _ = W5 m ρ c (Proc.devRef .tc main_arg9) := W6_of_ne m ρ c main_arg9 (by decide)
    _ = m ((c : Thread nD τ).loc main_arg9) := w5_arg9 m ρ c
theorem w7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by not_written hostOps2
    _ = W5 m ρ c (Proc.devRef .tc main_arg10) := W6_of_ne m ρ c main_arg10 (by decide)
    _ = m ((c : Thread nD τ).loc main_arg10) := w5_arg10 m ρ c

theorem w9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := by not_written hostOps3
    _ = W7 m ρ c (Proc.devRef .tc main_arg9) := W8_of_ne m ρ c main_arg9 (by decide)
    _ = m ((c : Thread nD τ).loc main_arg9) := w7_arg9 m ρ c
theorem w9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := by not_written hostOps3
    _ = W7 m ρ c (Proc.devRef .tc main_arg10) := W8_of_ne m ρ c main_arg10 (by decide)
    _ = m ((c : Thread nD τ).loc main_arg10) := w7_arg10 m ρ c

end Cert.KernelIdeal.Chain

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LinearBody.lean ====
/-
  The four kernel bodies, read at an index of the block they store.

  Each body takes a block of 5000 rows of a feature matrix A, the whole weight matrix W and the bias row b, multiplies
  the rows by the weights on the matrix unit into a zero accumulator, adds the bias row to every row and, in the first
  two kernels, takes the maximum with zero. The operands are rounded to bf16 on the way into the product; on the
  extended reals that rounding is the identity, so at row p and column q the stored value is
      act ((Σ_k A (p, k) · W (k, q)) + b (0, q)),
  with act the rectifier for the first two kernels and the identity for the last two.
-/
import proofs.«117158_j11854109737492_1_alg».proof.Proof.Gen.KernelIdeal.Skeleton
import proofs.«117158_j11854109737492_1_alg».proof.Proof.LibDot
import proofs.«117158_j11854109737492_1_alg».proof.Proof.Spec
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.ValueIdx
open scoped BigOperators

/-- The offsets of a rectangle that starts at the origin of a matrix. -/
theorem originOffsets : (![0, 0] : Fin 2 → Nat) = fun _ => 0 := funext fun a => by fin_cases a <;> rfl

/-! ## The matrix unit's product into zeros -/

/-- The 128-column product's dimension record is the plain matrix product's. -/
theorem dotWide_eq : dot_S5000x128_S128x128_S5000x128_1_0_0_1_n_n
    = Cert.LibDot.dims dot_S5000x128_S128x128_S5000x128_1_0_0_1_n_n.wf := rfl

/-- The 64-column product's dimension record is the plain matrix product's. -/
theorem dotNarrow_eq : dot_S5000x128_S128x64_S5000x64_1_0_0_1_n_n
    = Cert.LibDot.dims dot_S5000x128_S128x64_S5000x64_1_0_0_1_n_n.wf := rfl

/-- A block of rows times a 128 × 128 matrix, into zeros, at (p, q): the sum over the contracted coordinate. -/
theorem matmulWide_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  Cert.LibDot.matmul_zero_apply dot_S5000x128_S128x128_S5000x128_1_0_0_1_n_n.wf none A B p q

/-- A block of rows times a 128 × 64 matrix, into zeros, at (p, q): the sum over the contracted coordinate. -/
theorem matmulNarrow_apply {φ₁ φ₂ : FTy} (A : FVec Ideal S5000x128 φ₁) (B : FVec Ideal S128x64 φ₂) (p : Fin 5000) (q : Fin 64) :
    matmul dot_S5000x128_S128x64_S5000x64_1_0_0_1_n_n none A B (constant (F := Ideal) S5000x64 .f32 0x00000000#32) (ix2 p q)
      = ∑ k : Fin 128, A (ix2 p k) * B (ix2 k q) :=
  Cert.LibDot.matmul_zero_apply dot_S5000x128_S128x64_S5000x64_1_0_0_1_n_n.wf none A B p q

/-! ## The bodies -/

/-- The first kernel's stored value at (p, q): rows times weights, plus the bias row, rectified. -/
theorem body0_apply (x0 : Vec Ideal S5000x128 .f32) (x1 : Vec Ideal S128x128 .f32) (x2 : Vec Ideal S1x128 .f32)
    (p : Fin 5000) (q : Fin 128) :
    Gen.k0_pay1 (F := Ideal) x0 x1 x2 (ix2 p q)
      = Cert.Spec.relu ((∑ k : Fin 128, x0 (ix2 p k) * x1 (ix2 k q)) + x2 (ix2 (0 : Fin 1) q)) := by
  unfold Gen.k0_pay1 Cert.Spec.relu
  simp only [shapeCast_self]
  refine (maximumf_apply _ _ (ix2 p q)).trans ?_
  refine congrArg₂ max ?_ rfl
  refine (addf_apply _ _ (ix2 p q)).trans ?_
  refine congrArg₂ (· + ·) ?_ ?_
  · exact matmulWide_apply _ _ p q
  · exact broadcastTo_1b_ab_apply x2 _ p q

/-- The second kernel's stored value at (p, q): the same expression of its own three blocks. -/
theorem body1_apply (x0 : Vec Ideal S5000x128 .f32) (x1 : Vec Ideal S128x128 .f32) (x2 : Vec Ideal S1x128 .f32)
    (p : Fin 5000) (q : Fin 128) :
    Gen.k1_pay1 (F := Ideal) x0 x1 x2 (ix2 p q)
      = Cert.Spec.relu ((∑ k : Fin 128, x0 (ix2 p k) * x1 (ix2 k q)) + x2 (ix2 (0 : Fin 1) q)) := by
  unfold Gen.k1_pay1 Cert.Spec.relu
  simp only [shapeCast_self]
  refine (maximumf_apply _ _ (ix2 p q)).trans ?_
  refine congrArg₂ max ?_ rfl
  refine (addf_apply _ _ (ix2 p q)).trans ?_
  refine congrArg₂ (· + ·) ?_ ?_
  · exact matmulWide_apply _ _ p q
  · exact broadcastTo_1b_ab_apply x2 _ p q

/-- The third kernel's stored value at (p, q): rows times the 64-column weights, plus the bias row; no rectifier. -/
theorem body2_apply (x0 : Vec Ideal S5000x128 .f32) (x1 : Vec Ideal S128x64 .f32) (x2 : Vec Ideal S1x64 .f32)
    (p : Fin 5000) (q : Fin 64) :
    Gen.k2_pay1 (F := Ideal) x0 x1 x2 (ix2 p q)
      = (∑ k : Fin 128, x0 (ix2 p k) * x1 (ix2 k q)) + x2 (ix2 (0 : Fin 1) q) := by
  unfold Gen.k2_pay1
  simp only [shapeCast_self]
  refine (addf_apply _ _ (ix2 p q)).trans ?_
  refine congrArg₂ (· + ·) ?_ ?_
  · exact matmulNarrow_apply _ _ p q
  · exact broadcastTo_1b_ab_apply x2 _ p q

/-- The fourth kernel's stored value at (p, q): the same expression of its own three blocks. -/
theorem body3_apply (x0 : Vec Ideal S5000x128 .f32) (x1 : Vec Ideal S128x64 .f32) (x2 : Vec Ideal S1x64 .f32)
    (p : Fin 5000) (q : Fin 64) :
    Gen.k3_pay1 (F := Ideal) x0 x1 x2 (ix2 p q)
      = (∑ k : Fin 128, x0 (ix2 p k) * x1 (ix2 k q)) + x2 (ix2 (0 : Fin 1) q) := by
  unfold Gen.k3_pay1
  simp only [shapeCast_self]
  refine (addf_apply _ _ (ix2 p q)).trans ?_
  refine congrArg₂ (· + ·) ?_ ?_
  · exact matmulNarrow_apply _ _ p q
  · exact broadcastTo_1b_ab_apply x2 _ p q

end Cert.KernelIdeal.RegionValue

end
-- ==== Proof.Region0.lean ====
/-
  What the first kernel leaves in its output array, as one function of the arrays it finds.

  The kernel walks ten blocks of 5000 rows. At block t it reads rows 5000 t … 5000 t + 4999 of the feature matrix,
  the whole weight matrix and the bias row, and writes the same rows of the output. Row n of the output is therefore
  written by block n / 5000, from row n of the features alone, and the output ends, at (n, q), holding
      max ((Σ_k A (n, k) · W (k, q)) + b (0, q)) 0.
-/
import proofs.«117158_j11854109737492_1_alg».proof.Proof.Gen.KernelIdeal.Frame
import proofs.«117158_j11854109737492_1_alg».proof.Proof.Spec
import proofs.«117158_j11854109737492_1_alg».proof.Proof.LinearBody
import Idealize.ShloMosaic.Lib.Pipeline.Value
import Idealize.ShloMosaic.Lib.ValueIdx

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The layer as one function of whole arrays -/

/-- Entry (n, q) of the layer: row n of the features against column q of the weights, plus the bias at q, rectified. -/
def layer0At (A : S50000x128.Idx → EReal) (W : S128x128.Idx → EReal) (b : S1x128.Idx → EReal) (n : Fin 50000) (q : Fin 128) : EReal :=
  Cert.Spec.relu ((∑ k : Fin 128, A (ix2 n k) * W (ix2 k q)) + b (ix2 (0 : Fin 1) q))

/-- The layer's whole output array. -/
def layer0 (A : S50000x128.Idx → EReal) (W : S128x128.Idx → EReal) (b : S1x128.Idx → EReal) : S50000x128.Idx → EReal :=
  fun i => layer0At A W b ⟨(i 0).val, idx2_lt0 i⟩ ⟨(i 1).val, idx2_lt1 i⟩

/-! ## Which rows a block holds -/

/-- The index maps, decided over the ten blocks: the feature window and the output window sit at block row t, column
    block 0; the weights and the bias are always their one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at t is rows 5000 t … 5000 t + 4999 of the feature matrix. -/
theorem featureRows0 (c : Dev nD) (t : Fin cfg0.N) (y : S5000x128.Idx) (i : S50000x128.Idx)
    (hi0 : (i 0).val = 5000 * t.val + (y 0).val) (hi1 : (i 1).val = (y 1).val) :
    (iblk0 V c 0 t : Vec Ideal S5000x128 .f32) y = (V c main_v47 : S50000x128.Idx → EReal) i := by
  obtain ⟨e0, e1, -⟩ := blockIndex0 t
  unfold iblk0
  rw [View.read_apply]
  show V c main_v47 _ = V c main_v47 _
  refine congrArg (V c main_v47) (funext fun a => Fin.ext ?_)
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- The weight block at any t is the whole weight matrix. -/
theorem weightBlock0 (c : Dev nD) (t : Fin cfg0.N) :
    (iblk0 V c 1 t : Vec Ideal S128x128 .f32) = (V c main_arg3 : S128x128.Idx → EReal) := by
  obtain ⟨-, -, e0, e1, -⟩ := blockIndex0 t
  funext y
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias block at any t is the whole bias row. -/
theorem biasBlock0 (c : Dev nD) (t : Fin cfg0.N) :
    (iblk0 V c 2 t : Vec Ideal S1x128 .f32) = (V c main_v48 : S1x128.Idx → EReal) := by
  obtain ⟨-, -, -, -, e0, e1, -⟩ := blockIndex0 t
  funext y
  unfold iblk0
  rw [View.read_apply]
  show V c main_v48 _ = V c main_v48 _
  refine congrArg (V c main_v48) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## One block of the output -/

/-- The body of three blocks, where the feature block is the rows from `o` on of A and the other two are W and b, is at
    each of its entries the layer's entry `o` rows further down. -/
theorem body0_rows (A : S50000x128.Idx → EReal) (W : S128x128.Idx → EReal) (b : S1x128.Idx → EReal)
    (x0 : Vec Ideal S5000x128 .f32) (x1 : Vec Ideal S128x128 .f32) (x2 : Vec Ideal S1x128 .f32) (o : Nat)
    (h0 : ∀ (y : S5000x128.Idx) (i : S50000x128.Idx), (i 0).val = o + (y 0).val → (i 1).val = (y 1).val → x0 y = A i)
    (h1 : x1 = W) (h2 : x2 = b)
    (j : S5000x128.Idx) (i : S50000x128.Idx) (hi0 : (i 0).val = o + (j 0).val) (hi1 : (i 1).val = (j 1).val) :
    Gen.k0_pay1 (F := Ideal) x0 x1 x2 j = layer0 A W b i := by
  subst h1 h2
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q = q' := (Fin.ext hi1).symm
  refine (body0_apply x0 x1 x2 p q).trans ?_
  show _ = Cert.Spec.relu ((∑ k : Fin 128, A (ix2 n k) * x1 (ix2 k q)) + x2 (ix2 (0 : Fin 1) q))
  refine congrArg Cert.Spec.relu (congrArg₂ (· + ·) (Finset.sum_congr rfl fun k _ => ?_) rfl)
  rw [h0 (ix2 p k) (ix2 n k) hi0 rfl]

/-- What block t writes back is block t of the layer of the arrays the kernel finds. -/
theorem written0_eq (c : Dev nD) (t : Fin cfg0.N) :
    (dat0 V c).flushed 3 t
      = ((cfg0.win 3).blk t).view.read (Elt Ideal) (layer0 (V c main_v47) (V c main_arg3) (V c main_v48)) := by
  show (cfg0.win 3).cut (grid0.coords t) ((dat0 V c).after 3 t) = _
  rw [after0_3]
  unfold out0_3
  rw [View.canon_unit_zero originOffsets]
  simp only [View.ld_unit_zero (S := S5000x128) originOffsets, View.ld_unit_zero (S := S128x128) originOffsets,
    View.ld_unit_zero (S := S1x128) originOffsets]
  obtain ⟨-, -, -, -, -, -, e0, e1⟩ := blockIndex0 t
  funext j
  rw [View.read_apply]
  refine body0_rows (V c main_v47) (V c main_arg3) (V c main_v48) (iblk0 V c 0 t) (iblk0 V c 1 t) (iblk0 V c 2 t) (5000 * t.val)
    (fun y i h0 h1 => featureRows0 V c t y i h0 h1) (weightBlock0 V c t) (biasBlock0 V c t) j
    (((cfg0.win 3).blk t).view.emb j) ?_ ?_
  · show win0_3.index t (0 : Fin 2) * 5000 + 1 * (j 0).val = 5000 * t.val + (j 0).val; rw [e0]; omega
  · show win0_3.index t (1 : Fin 2) * 128 + 1 * (j 1).val = (j 1).val; rw [e1]; omega

/-! ## Every row is in one block -/

/-- An entry of the output is in block t iff each of its coordinates is in the block's range on its axis. -/
theorem mem_rows0 (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v49).slice (win0_3.rect t)).set ↔ _
  rw [View.set_slice_whole, Rect.mem_set_unit]
  exact Iff.rfl

/-- Row n is written by block n / 5000. -/
theorem rowCovered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, e0, e1⟩ := blockIndex0 ⟨(i 0).val / 5000, ht⟩
  refine ⟨⟨(i 0).val / 5000, ht⟩, flush0_3 _, ?_⟩
  rw [mem_rows0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-! ## The output array -/

/-- After the ten blocks the output array is the layer of the arrays the kernel found. -/
theorem region0_eq (c : Dev nD) :
    (dat0 V c).arrAt 3 cfg0.N = layer0 (V c main_v47) (V c main_arg3) (V c main_v48) :=
  (dat0 V c).arrAt_eq_of_cover 3 (layer0 (V c main_v47) (V c main_arg3) (V c main_v48))
    (fun t _ => written0_eq V c t) rowCovered0

/-- The layer's array at (n, q) is its entry there. -/
theorem layer0_ix2 (A : S50000x128.Idx → EReal) (W : S128x128.Idx → EReal) (b : S1x128.Idx → EReal) (n : Fin 50000) (q : Fin 128) :
    layer0 A W b (ix2 n q)
      = Cert.Spec.relu ((∑ k : Fin 128, A (ix2 n k) * W (ix2 k q)) + b (ix2 (0 : Fin 1) q)) := rfl

/-- The same, entry by entry. -/
theorem region0_apply (c : Dev nD) (n : Fin 50000) (q : Fin 128) :
    ((dat0 (F := Ideal) V c).arrAt 3 cfg0.N : S50000x128.Idx → EReal) (ix2 n q)
      = layer0At (V c main_v47) (V c main_arg3) (V c main_v48) n q :=
  congrFun (region0_eq V c) (ix2 n q)

end Cert.KernelIdeal.RegionValue

end
-- ==== Proof.Region1.lean ====
/-
  What the second kernel leaves in its output array, as one function of the arrays it finds.

  The kernel walks ten blocks of 5000 rows. At block t it reads rows 5000 t … 5000 t + 4999 of the feature matrix,
  the whole weight matrix and the bias row, and writes the same rows of the output. Row n of the output is therefore
  written by block n / 5000, from row n of the features alone, and the output ends, at (n, q), holding
      max ((Σ_k A (n, k) · W (k, q)) + b (0, q)) 0.
-/
import proofs.«117158_j11854109737492_1_alg».proof.Proof.Gen.KernelIdeal.Frame
import proofs.«117158_j11854109737492_1_alg».proof.Proof.Spec
import proofs.«117158_j11854109737492_1_alg».proof.Proof.LinearBody
import Idealize.ShloMosaic.Lib.Pipeline.Value
import Idealize.ShloMosaic.Lib.ValueIdx

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The layer as one function of whole arrays -/

/-- Entry (n, q) of the layer: row n of the features against column q of the weights, plus the bias at q, rectified. -/
def layer1At (A : S50000x128.Idx → EReal) (W : S128x128.Idx → EReal) (b : S1x128.Idx → EReal) (n : Fin 50000) (q : Fin 128) : EReal :=
  Cert.Spec.relu ((∑ k : Fin 128, A (ix2 n k) * W (ix2 k q)) + b (ix2 (0 : Fin 1) q))

/-- The layer's whole output array. -/
def layer1 (A : S50000x128.Idx → EReal) (W : S128x128.Idx → EReal) (b : S1x128.Idx → EReal) : S50000x128.Idx → EReal :=
  fun i => layer1At A W b ⟨(i 0).val, idx2_lt0 i⟩ ⟨(i 1).val, idx2_lt1 i⟩

/-! ## Which rows a block holds -/

/-- The index maps, decided over the ten blocks: the feature window and the output window sit at block row t, column
    block 0; the weights and the bias are always their one block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at t is rows 5000 t … 5000 t + 4999 of the feature matrix. -/
theorem featureRows1 (c : Dev nD) (t : Fin cfg1.N) (y : S5000x128.Idx) (i : S50000x128.Idx)
    (hi0 : (i 0).val = 5000 * t.val + (y 0).val) (hi1 : (i 1).val = (y 1).val) :
    (iblk1 V c 0 t : Vec Ideal S5000x128 .f32) y = (V c main_v66 : S50000x128.Idx → EReal) i := by
  obtain ⟨e0, e1, -⟩ := blockIndex1 t
  unfold iblk1
  rw [View.read_apply]
  show V c main_v66 _ = V c main_v66 _
  refine congrArg (V c main_v66) (funext fun a => Fin.ext ?_)
  match a with
  | ⟨0, _⟩ => show win1_0.index t (0 : Fin 2) * 5000 + 1 * (y 0).val = (i 0).val; rw [e0, hi0]; omega
  | ⟨1, _⟩ => show win1_0.index t (1 : Fin 2) * 128 + 1 * (y 1).val = (i 1).val; rw [e1, hi1]; omega

/-- The weight block at any t is the whole weight matrix. -/
theorem weightBlock1 (c : Dev nD) (t : Fin cfg1.N) :
    (iblk1 V c 1 t : Vec Ideal S128x128 .f32) = (V c main_arg5 : S128x128.Idx → EReal) := by
  obtain ⟨-, -, e0, e1, -⟩ := blockIndex1 t
  funext y
  unfold iblk1
  rw [View.read_apply]
  show V c main_arg5 _ = V c main_arg5 _
  refine congrArg (V c main_arg5) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias block at any t is the whole bias row. -/
theorem biasBlock1 (c : Dev nD) (t : Fin cfg1.N) :
    (iblk1 V c 2 t : Vec Ideal S1x128 .f32) = (V c main_v67 : S1x128.Idx → EReal) := by
  obtain ⟨-, -, -, -, e0, e1, -⟩ := blockIndex1 t
  funext y
  unfold iblk1
  rw [View.read_apply]
  show V c main_v67 _ = V c main_v67 _
  refine congrArg (V c main_v67) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-! ## One block of the output -/

/-- The body of three blocks, where the feature block is the rows from `o` on of A and the other two are W and b, is at
    each of its entries the layer's entry `o` rows further down. -/
theorem body1_rows (A : S50000x128.Idx → EReal) (W : S128x128.Idx → EReal) (b : S1x128.Idx → EReal)
    (x0 : Vec Ideal S5000x128 .f32) (x1 : Vec Ideal S128x128 .f32) (x2 : Vec Ideal S1x128 .f32) (o : Nat)
    (h0 : ∀ (y : S5000x128.Idx) (i : S50000x128.Idx), (i 0).val = o + (y 0).val → (i 1).val = (y 1).val → x0 y = A i)
    (h1 : x1 = W) (h2 : x2 = b)
    (j : S5000x128.Idx) (i : S50000x128.Idx) (hi0 : (i 0).val = o + (j 0).val) (hi1 : (i 1).val = (j 1).val) :
    Gen.k1_pay1 (F := Ideal) x0 x1 x2 j = layer1 A W b i := by
  subst h1 h2
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q = q' := (Fin.ext hi1).symm
  refine (body1_apply x0 x1 x2 p q).trans ?_
  show _ = Cert.Spec.relu ((∑ k : Fin 128, A (ix2 n k) * x1 (ix2 k q)) + x2 (ix2 (0 : Fin 1) q))
  refine congrArg Cert.Spec.relu (congrArg₂ (· + ·) (Finset.sum_congr rfl fun k _ => ?_) rfl)
  rw [h0 (ix2 p k) (ix2 n k) hi0 rfl]

/-- What block t writes back is block t of the layer of the arrays the kernel finds. -/
theorem written1_eq (c : Dev nD) (t : Fin cfg1.N) :
    (dat1 V c).flushed 3 t
      = ((cfg1.win 3).blk t).view.read (Elt Ideal) (layer1 (V c main_v66) (V c main_arg5) (V c main_v67)) := by
  show (cfg1.win 3).cut (grid1.coords t) ((dat1 V c).after 3 t) = _
  rw [after1_3]
  unfold out1_3
  rw [View.canon_unit_zero originOffsets]
  simp only [View.ld_unit_zero (S := S5000x128) originOffsets, View.ld_unit_zero (S := S128x128) originOffsets,
    View.ld_unit_zero (S := S1x128) originOffsets]
  obtain ⟨-, -, -, -, -, -, e0, e1⟩ := blockIndex1 t
  funext j
  rw [View.read_apply]
  refine body1_rows (V c main_v66) (V c main_arg5) (V c main_v67) (iblk1 V c 0 t) (iblk1 V c 1 t) (iblk1 V c 2 t) (5000 * t.val)
    (fun y i h0 h1 => featureRows1 V c t y i h0 h1) (weightBlock1 V c t) (biasBlock1 V c t) j
    (((cfg1.win 3).blk t).view.emb j) ?_ ?_
  · show win1_3.index t (0 : Fin 2) * 5000 + 1 * (j 0).val = 5000 * t.val + (j 0).val; rw [e0]; omega
  · show win1_3.index t (1 : Fin 2) * 128 + 1 * (j 1).val = (j 1).val; rw [e1]; omega

/-! ## Every row is in one block -/

/-- An entry of the output is in block t iff each of its coordinates is in the block's range on its axis. -/
theorem mem_rows1 (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v68).slice (win1_3.rect t)).set ↔ _
  rw [View.set_slice_whole, Rect.mem_set_unit]
  exact Iff.rfl

/-- Row n is written by block n / 5000. -/
theorem rowCovered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨-, -, -, -, -, -, e0, e1⟩ := blockIndex1 ⟨(i 0).val / 5000, ht⟩
  refine ⟨⟨(i 0).val / 5000, ht⟩, flush1_3 _, ?_⟩
  rw [mem_rows1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-! ## The output array -/

/-- After the ten blocks the output array is the layer of the arrays the kernel found. -/
theorem region1_eq (c : Dev nD) :
    (dat1 V c).arrAt 3 cfg1.N = layer1 (V c main_v66) (V c main_arg5) (V c main_v67) :=
  (dat1 V c).arrAt_eq_of_cover 3 (layer1 (V c main_v66) (V c main_arg5) (V c main_v67))
    (fun t _ => written1_eq V c t) rowCovered1

/-- The layer's array at (n, q) is its entry there. -/
theorem layer1_ix2 (A : S50000x128.Idx → EReal) (W : S128x128.Idx → EReal) (b : S1x128.Idx → EReal) (n : Fin 50000) (q : Fin 128) :
    layer1 A W b (ix2 n q)
      = Cert.Spec.relu ((∑ k : Fin 128, A (ix2 n k) * W (ix2 k q)) + b (ix2 (0 : Fin 1) q)) := rfl

/-- The same, entry by entry. -/
theorem region1_apply (c : Dev nD) (n : Fin 50000) (q : Fin 128) :
    ((dat1 (F := Ideal) V c).arrAt 3 cfg1.N : S50000x128.Idx → EReal) (ix2 n q)
      = layer1At (V c main_v66) (V c main_arg5) (V c main_v67) n q :=
  congrFun (region1_eq V c) (ix2 n q)

end Cert.KernelIdeal.RegionValue

end
-- ==== Proof.Region2.lean ====
/-
  What the third kernel leaves in its output array, as one function of the arrays it finds.

  The kernel walks ten blocks of 5000 rows. At block t it reads rows 5000 t … 5000 t + 4999 of the feature matrix,
  the whole weight matrix and the bias row, and writes the same rows of the output. Row n of the output is therefore
  written by block n / 5000, from row n of the features alone, and the output ends, at (n, q), holding
      (Σ_k A (n, k) · W (k, q)) + b (0, q).
-/
import proofs.«117158_j11854109737492_1_alg».proof.Proof.Gen.KernelIdeal.Frame
import proofs.«117158_j11854109737492_1_alg».proof.Proof.Spec
import proofs.«117158_j11854109737492_1_alg».proof.Proof.LinearBody
import Idealize.ShloMosaic.Lib.Pipeline.Value
import Idealize.ShloMosaic.Lib.ValueIdx

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The layer as one function of whole arrays -/

/-- Entry (n, q) of the layer: row n of the features against column q of the weights, plus the bias at q. -/
def layer2At (A : S50000x128.Idx → EReal) (W : S128x64.Idx → EReal) (b : S1x64.Idx → EReal) (n : Fin 50000) (q : Fin 64) : EReal :=
  (∑ k : Fin 128, A (ix2 n k) * W (ix2 k q)) + b (ix2 (0 : Fin 1) q)

/-- The layer's whole output array. -/
def layer2 (A : S50000x128.Idx → EReal) (W : S128x64.Idx → EReal) (b : S1x64.Idx → EReal) : S50000x64.Idx → EReal :=
  fun i => layer2At A W b ⟨(i 0).val, idx2_lt0 i⟩ ⟨(i 1).val, idx2_lt1 i⟩

/-! ## Which rows a block holds -/

/-- The index maps, decided over the ten blocks: the feature window and the output window sit at block row t, column
    block 0; the weights and the bias are always their one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at t is rows 5000 t … 5000 t + 4999 of the feature matrix. -/
theorem featureRows2 (c : Dev nD) (t : Fin cfg2.N) (y : S5000x128.Idx) (i : S50000x128.Idx)
    (hi0 : (i 0).val = 5000 * t.val + (y 0).val) (hi1 : (i 1).val = (y 1).val) :
    (iblk2 V c 0 t : Vec Ideal S5000x128 .f32) y = (V c main_v85 : S50000x128.Idx → EReal) i := by
  obtain ⟨e0, e1, -⟩ := blockIndex2 t
  unfold iblk2
  rw [View.read_apply]
  show V c main_v85 _ = V c main_v85 _
  refine congrArg (V c main_v85) (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 128 + 1 * (y 1).val = (i 1).val; rw [e1, hi1]; omega

/-- The weight block at any t is the whole weight matrix. -/
theorem weightBlock2 (c : Dev nD) (t : Fin cfg2.N) :
    (iblk2 V c 1 t : Vec Ideal S128x64 .f32) = (V c main_arg7 : S128x64.Idx → EReal) := by
  obtain ⟨-, -, e0, e1, -⟩ := blockIndex2 t
  funext y
  unfold iblk2
  rw [View.read_apply]
  show V c main_arg7 _ = V c main_arg7 _
  refine congrArg (V c main_arg7) (funext fun a => Fin.ext ?_)
  match a with
  | ⟨0, _⟩ => show win2_1.index t (0 : Fin 2) * 128 + 1 * (y 0).val = (y 0).val; rw [e0]; omega
  | ⟨1, _⟩ => show win2_1.index t (1 : Fin 2) * 64 + 1 * (y 1).val = (y 1).val; rw [e1]; omega

/-- The bias block at any t is the whole bias row. -/
theorem biasBlock2 (c : Dev nD) (t : Fin cfg2.N) :
    (iblk2 V c 2 t : Vec Ideal S1x64 .f32) = (V c main_v86 : S1x64.Idx → EReal) := by
  obtain ⟨-, -, -, -, e0, e1, -⟩ := blockIndex2 t
  funext y
  unfold iblk2
  rw [View.read_apply]
  show V c main_v86 _ = V c main_v86 _
  refine congrArg (V c main_v86) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-! ## One block of the output -/

/-- The body of three blocks, where the feature block is the rows from `o` on of A and the other two are W and b, is at
    each of its entries the layer's entry `o` rows further down. -/
theorem body2_rows (A : S50000x128.Idx → EReal) (W : S128x64.Idx → EReal) (b : S1x64.Idx → EReal)
    (x0 : Vec Ideal S5000x128 .f32) (x1 : Vec Ideal S128x64 .f32) (x2 : Vec Ideal S1x64 .f32) (o : Nat)
    (h0 : ∀ (y : S5000x128.Idx) (i : S50000x128.Idx), (i 0).val = o + (y 0).val → (i 1).val = (y 1).val → x0 y = A i)
    (h1 : x1 = W) (h2 : x2 = b)
    (j : S5000x64.Idx) (i : S50000x64.Idx) (hi0 : (i 0).val = o + (j 0).val) (hi1 : (i 1).val = (j 1).val) :
    Gen.k2_pay1 (F := Ideal) x0 x1 x2 j = layer2 A W b i := by
  subst h1 h2
  obtain ⟨p, q, rfl⟩ : ∃ (p : Fin 5000) (q : Fin 64), j = ix2 p q := ⟨j 0, j 1, eq_ix2 j⟩
  obtain ⟨n, q', rfl⟩ : ∃ (n : Fin 50000) (q' : Fin 64), i = ix2 n q' := ⟨i 0, i 1, eq_ix2 i⟩
  obtain rfl : q = q' := (Fin.ext hi1).symm
  refine (body2_apply x0 x1 x2 p q).trans ?_
  show _ = (∑ k : Fin 128, A (ix2 n k) * x1 (ix2 k q)) + x2 (ix2 (0 : Fin 1) q)
  refine congrArg₂ (· + ·) (Finset.sum_congr rfl fun k _ => ?_) rfl
  rw [h0 (ix2 p k) (ix2 n k) hi0 rfl]

/-- What block t writes back is block t of the layer of the arrays the kernel finds. -/
theorem written2_eq (c : Dev nD) (t : Fin cfg2.N) :
    (dat2 V c).flushed 3 t
      = ((cfg2.win 3).blk t).view.read (Elt Ideal) (layer2 (V c main_v85) (V c main_arg7) (V c main_v86)) := by
  show (cfg2.win 3).cut (grid2.coords t) ((dat2 V c).after 3 t) = _
  rw [after2_3]
  unfold out2_3
  rw [View.canon_unit_zero originOffsets]
  simp only [View.ld_unit_zero (S := S5000x128) originOffsets, View.ld_unit_zero (S := S128x64) originOffsets,
    View.ld_unit_zero (S := S1x64) originOffsets]
  obtain ⟨-, -, -, -, -, -, e0, e1⟩ := blockIndex2 t
  funext j
  rw [View.read_apply]
  refine body2_rows (V c main_v85) (V c main_arg7) (V c main_v86) (iblk2 V c 0 t) (iblk2 V c 1 t) (iblk2 V c 2 t) (5000 * t.val)
    (fun y i h0 h1 => featureRows2 V c t y i h0 h1) (weightBlock2 V c t) (biasBlock2 V c t) j
    (((cfg2.win 3).blk t).view.emb j) ?_ ?_
  · show win2_3.index t (0 : Fin 2) * 5000 + 1 * (j 0).val = 5000 * t.val + (j 0).val; rw [e0]; omega
  · show win2_3.index t (1 : Fin 2) * 64 + 1 * (j 1).val = (j 1).val; rw [e1]; omega

/-! ## Every row is in one block -/

/-- An entry of the output is in block t iff each of its coordinates is in the block's range on its axis. -/
theorem mem_rows2 (t : Fin cfg2.N) (i : S50000x64.Idx) :
    i ∈ ((cfg2.win 3).blk t).view.set
      ↔ ∀ a : Fin 2, win2_3.index t a * S5000x64.size a ≤ (i a).val ∧ (i a).val < win2_3.index t a * S5000x64.size a + S5000x64.size a := by
  show i ∈ ((View.whole main_v87).slice (win2_3.rect t)).set ↔ _
  rw [View.set_slice_whole, Rect.mem_set_unit]
  exact Iff.rfl

/-- Row n is written by block n / 5000. -/
theorem rowCovered2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  have ht : (i 0).val / 5000 < grid2.N := by rw [hN]; omega
  obtain ⟨-, -, -, -, -, -, e0, e1⟩ := blockIndex2 ⟨(i 0).val / 5000, ht⟩
  refine ⟨⟨(i 0).val / 5000, ht⟩, flush2_3 _, ?_⟩
  rw [mem_rows2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e1]; omega

/-! ## The output array -/

/-- After the ten blocks the output array is the layer of the arrays the kernel found. -/
theorem region2_eq (c : Dev nD) :
    (dat2 V c).arrAt 3 cfg2.N = layer2 (V c main_v85) (V c main_arg7) (V c main_v86) :=
  (dat2 V c).arrAt_eq_of_cover 3 (layer2 (V c main_v85) (V c main_arg7) (V c main_v86))
    (fun t _ => written2_eq V c t) rowCovered2

/-- The layer's array at (n, q) is its entry there. -/
theorem layer2_ix2 (A : S50000x128.Idx → EReal) (W : S128x64.Idx → EReal) (b : S1x64.Idx → EReal) (n : Fin 50000) (q : Fin 64) :
    layer2 A W b (ix2 n q)
      = (∑ k : Fin 128, A (ix2 n k) * W (ix2 k q)) + b (ix2 (0 : Fin 1) q) := rfl

/-- The same, entry by entry. -/
theorem region2_apply (c : Dev nD) (n : Fin 50000) (q : Fin 64) :
    ((dat2 (F := Ideal) V c).arrAt 3 cfg2.N : S50000x64.Idx → EReal) (ix2 n q)
      = layer2At (V c main_v85) (V c main_arg7) (V c main_v86) n q :=
  congrFun (region2_eq V c) (ix2 n q)

end Cert.KernelIdeal.RegionValue

end
-- ==== Proof.Region3.lean ====
/-
  What the fourth kernel leaves in its output array, as one function of the arrays it finds.

  The kernel walks ten blocks of 5000 rows. At block t it reads rows 5000 t … 5000 t + 4999 of the feature matrix,
  the whole weight matrix and the bias row, and writes the same rows of the output. Row n of the output is therefore
  written by block n / 5000, from row n of the features alone, and the output ends, at (n, q), holding
      (Σ_k A (n, k) · W (k, q)) + b (0, q).
-/
import proofs.«117158_j11854109737492_1_alg».proof.Proof.Gen.KernelIdeal.Frame
import proofs.«117158_j11854109737492_1_alg».proof.Proof.Spec
import proofs.«117158_j11854109737492_1_alg».proof.Proof.LinearBody
import Idealize.ShloMosaic.Lib.Pipeline.Value
import Idealize.ShloMosaic.Lib.ValueIdx

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## The layer as one function of whole arrays -/

/-- Entry (n, q) of the layer: row n of the features against column q of the weights, plus the bias at q. -/
def layer3At (A : S50000x128.Idx → EReal) (W : S128x64.Idx → EReal) (b : S1x64.Idx → EReal) (n : Fin 50000) (q : Fin 64) : EReal :=
  (∑ k : Fin 128, A (ix2 n k) * W (ix2 k q)) + b (ix2 (0 : Fin 1) q)

/-- The layer's whole output array. -/
def layer3 (A : S50000x128.Idx → EReal) (W : S128x64.Idx → EReal) (b : S1x64.Idx → EReal) : S50000x64.Idx → EReal :=
  fun i => layer3At A W b ⟨(i 0).val, idx2_lt0 i⟩ ⟨(i 1).val, idx2_lt1 i⟩

/-! ## Which rows a block holds -/

/-- The index maps, decided over the ten blocks: the feature window and the output window sit at block row t, column
    block 0; the weights and the bias are always their one block. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at t is rows 5000 t … 5000 t + 4999 of the feature matrix. -/
theorem featureRows3 (c : Dev nD) (t : Fin cfg3.N) (y : S5000x128.Idx) (i : S50000x128.Idx)
    (hi0 : (i 0).val = 5000 * t.val + (y 0).val) (hi1 : (i 1).val = (y 1).val) :
    (iblk3 V c 0 t : Vec Ideal S5000x128 .f32) y = (V c main_v85 : S50000x128.Idx → EReal) i := by
  obtain ⟨e0, e1, -⟩ := blockIndex3 t
  unfold iblk3
  rw [View.read_apply]
  show V c main_v85 _ = V c main_v85 _
  refine congrArg (V c main_v85) (funext fun a => Fin.ext ?_)
  match a with
  | ⟨0, _⟩ => show win3_0.index t (0 : Fin 2) * 5000 + 1 * (y 0).val = (i 0).val; rw [e0, hi0]; omega
  | ⟨1, _⟩ => show win3_0.index t (1 : Fin 2) * 128 + 1 * (y 1).val = (i 1).val; rw [e1, hi1]; omega

/-- The weight block at any t is the whole weight matrix. -/
theorem weightBlock3 (c : Dev nD) (t : Fin cfg3.N) :
    (iblk3 V c 1 t : Vec Ideal S128x64 .f32) = (V c main_arg9 : S128x64.Idx → EReal) := by
  obtain ⟨-, -, e0, e1, -⟩ := blockIndex3 t
  funext y
  unfold iblk3
  rw [View.read_apply]
  show V c main_arg9 _ = V c main_arg9 _
  refine congrArg (V c main_arg9) (funext fun a => Fin.ext ?_)
  match a with
  | ⟨0, _⟩ => show win3_1.index t (0 : Fin 2) * 128 + 1 * (y 0).val = (y 0).val; rw [e0]; omega
  | ⟨1, _⟩ => show win3_1.index t (1 : Fin 2) * 64 + 1 * (y 1).val = (y 1).val; rw [e1]; omega

/-- The bias block at any t is the whole bias row. -/
theorem biasBlock3 (c : Dev nD) (t : Fin cfg3.N) :
    (iblk3 V c 2 t : Vec Ideal S1x64 .f32) = (V c main_v88 : S1x64.Idx → EReal) := by
  obtain ⟨-, -, -, -, e0, e1, -⟩ := blockIndex3 t
  funext y
  unfold iblk3
  rw [View.read_apply]
  show V c main_v88 _ = V c main_v88 _
  refine congrArg (V c main_v88) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

/-! ## One block of the output -/

/-- The body of three blocks, where the feature block is the rows from `o` on of A and the other two are W and b, is at
    each of its entries the layer's entry `o` rows further down. -/
theorem body3_rows (A : S50000x128.Idx → EReal) (W : S128x64.Idx → EReal) (b : S1x64.Idx → EReal)
    (x0 : Vec Ideal S5000x128 .f32) (x1 : Vec Ideal S128x64 .f32) (x2 : Vec Ideal S1x64 .f32) (o : Nat)
    (h0 : ∀ (y : S5000x128.Idx) (i : S50000x128.Idx), (i 0).val = o + (y 0).val → (i 1).val = (y 1).val → x0 y = A i)
    (h1 : x1 = W) (h2 : x2 = b)
    (j : S5000x64.Idx) (i : S50000x64.Idx) (hi0 : (i 0).val = o + (j 0).val) (hi1 : (i 1).val = (j 1).val) :
    Gen.k3_pay1 (F := Ideal) x0 x1 x2 j = layer3 A W b i := by
  subst h1 h2
  obtain ⟨p, q, rfl⟩ : ∃ (p : Fin 5000) (q : Fin 64), j = ix2 p q := ⟨j 0, j 1, eq_ix2 j⟩
  obtain ⟨n, q', rfl⟩ : ∃ (n : Fin 50000) (q' : Fin 64), i = ix2 n q' := ⟨i 0, i 1, eq_ix2 i⟩
  obtain rfl : q = q' := (Fin.ext hi1).symm
  refine (body3_apply x0 x1 x2 p q).trans ?_
  show _ = (∑ k : Fin 128, A (ix2 n k) * x1 (ix2 k q)) + x2 (ix2 (0 : Fin 1) q)
  refine congrArg₂ (· + ·) (Finset.sum_congr rfl fun k _ => ?_) rfl
  rw [h0 (ix2 p k) (ix2 n k) hi0 rfl]

/-- What block t writes back is block t of the layer of the arrays the kernel finds. -/
theorem written3_eq (c : Dev nD) (t : Fin cfg3.N) :
    (dat3 V c).flushed 3 t
      = ((cfg3.win 3).blk t).view.read (Elt Ideal) (layer3 (V c main_v85) (V c main_arg9) (V c main_v88)) := by
  show (cfg3.win 3).cut (grid3.coords t) ((dat3 V c).after 3 t) = _
  rw [after3_3]
  unfold out3_3
  rw [View.canon_unit_zero originOffsets]
  simp only [View.ld_unit_zero (S := S5000x128) originOffsets, View.ld_unit_zero (S := S128x64) originOffsets,
    View.ld_unit_zero (S := S1x64) originOffsets]
  obtain ⟨-, -, -, -, -, -, e0, e1⟩ := blockIndex3 t
  funext j
  rw [View.read_apply]
  refine body3_rows (V c main_v85) (V c main_arg9) (V c main_v88) (iblk3 V c 0 t) (iblk3 V c 1 t) (iblk3 V c 2 t) (5000 * t.val)
    (fun y i h0 h1 => featureRows3 V c t y i h0 h1) (weightBlock3 V c t) (biasBlock3 V c t) j
    (((cfg3.win 3).blk t).view.emb j) ?_ ?_
  · show win3_3.index t (0 : Fin 2) * 5000 + 1 * (j 0).val = 5000 * t.val + (j 0).val; rw [e0]; omega
  · show win3_3.index t (1 : Fin 2) * 64 + 1 * (j 1).val = (j 1).val; rw [e1]; omega

/-! ## Every row is in one block -/

/-- An entry of the output is in block t iff each of its coordinates is in the block's range on its axis. -/
theorem mem_rows3 (t : Fin cfg3.N) (i : S50000x64.Idx) :
    i ∈ ((cfg3.win 3).blk t).view.set
      ↔ ∀ a : Fin 2, win3_3.index t a * S5000x64.size a ≤ (i a).val ∧ (i a).val < win3_3.index t a * S5000x64.size a + S5000x64.size a := by
  show i ∈ ((View.whole main_v89).slice (win3_3.rect t)).set ↔ _
  rw [View.set_slice_whole, Rect.mem_set_unit]
  exact Iff.rfl

/-- Row n is written by block n / 5000. -/
theorem rowCovered3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : grid3.N = 10 := N_3
  have ht : (i 0).val / 5000 < grid3.N := by rw [hN]; omega
  obtain ⟨-, -, -, -, -, -, e0, e1⟩ := blockIndex3 ⟨(i 0).val / 5000, ht⟩
  refine ⟨⟨(i 0).val / 5000, ht⟩, flush3_3 _, ?_⟩
  rw [mem_rows3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val
      ∧ (i 1).val < win3_3.index ⟨(i 0).val / 5000, ht⟩ (1 : Fin 2) * 64 + 64
    rw [e1]; omega

/-! ## The output array -/

/-- After the ten blocks the output array is the layer of the arrays the kernel found. -/
theorem region3_eq (c : Dev nD) :
    (dat3 V c).arrAt 3 cfg3.N = layer3 (V c main_v85) (V c main_arg9) (V c main_v88) :=
  (dat3 V c).arrAt_eq_of_cover 3 (layer3 (V c main_v85) (V c main_arg9) (V c main_v88))
    (fun t _ => written3_eq V c t) rowCovered3

/-- The layer's array at (n, q) is its entry there. -/
theorem layer3_ix2 (A : S50000x128.Idx → EReal) (W : S128x64.Idx → EReal) (b : S1x64.Idx → EReal) (n : Fin 50000) (q : Fin 64) :
    layer3 A W b (ix2 n q)
      = (∑ k : Fin 128, A (ix2 n k) * W (ix2 k q)) + b (ix2 (0 : Fin 1) q) := rfl

/-- The same, entry by entry. -/
theorem region3_apply (c : Dev nD) (n : Fin 50000) (q : Fin 64) :
    ((dat3 (F := Ideal) V c).arrAt 3 cfg3.N : S50000x64.Idx → EReal) (ix2 n q)
      = layer3At (V c main_v85) (V c main_arg9) (V c main_v88) n q :=
  congrFun (region3_eq V c) (ix2 n q)

end Cert.KernelIdeal.RegionValue

end
-- ==== Proof.ChainB.lean ====
import proofs.«117158_j11854109737492_1_alg».proof.Proof.Gen.KernelIdeal.Frame
import proofs.«117158_j11854109737492_1_alg».proof.Proof.ChainS
import proofs.«117158_j11854109737492_1_alg».proof.Proof.ChainRead
import proofs.«117158_j11854109737492_1_alg».proof.Proof.ChainArgs
import proofs.«117158_j11854109737492_1_alg».proof.Proof.Region0
import proofs.«117158_j11854109737492_1_alg».proof.Proof.Region1
import proofs.«117158_j11854109737492_1_alg».proof.Proof.Region2
import proofs.«117158_j11854109737492_1_alg».proof.Proof.Region3
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx
open Cert.Net

variable (m : (ℓ : Loc nD τ sig) → Buf (Elt Ideal) ℓ) (ρ : Dev nD → PrngReg)

open Cert.KernelIdeal.RegionValue

/-! ## The graph's arrays as the kernel program holds them -/

abbrev sv (c : Dev nD) : IVec ⟨1, ![800000]⟩ 32 := srcVec (ei m c)
abbrev dv (c : Dev nD) : IVec ⟨1, ![800000]⟩ 32 := dstVec (ei m c)
/-- The edges' factors. -/
abbrev wA (c : Dev nD) : FVec Ideal S800000 .f32 := nrmT (dinvT (dv m c) (ea m c)) (sv m c) (dv m c) (ea m c)
/-- The self-loops' factors. -/
abbrev sA (c : Dev nD) : FVec Ideal S50000 .f32 := mulf (dinvT (dv m c) (ea m c)) (dinvT (dv m c) (ea m c))

/-- The specification's parameters at the program's arrays. -/
abbrev gsK (c : Dev nD) : Fin 800000 → Fin 50000 := posC (srcIdx (ei m c))
abbrev scK (c : Dev nD) : Fin 800000 → Int := posZ (dstIdxS (ei m c))
abbrev wK (c : Dev nD) : Fin 800000 → EReal := wOf (srcIdx (ei m c)) (dstIdxG (ei m c)) (dstIdxS (ei m c)) (ea m c)
abbrev sK (c : Dev nD) : Fin 50000 → EReal := sOf (dstIdxS (ei m c)) (ea m c)

theorem wA_vec (c : Dev nD) : vec (wA m c) = wK m c := nrmT_vec (dv m c) (sv m c) (ea m c)
theorem sA_vec (c : Dev nD) : vec (sA m c) = sK m c := d2_vec (dv m c) (ea m c)

/-- An aggregation of a feature array with the program's factors, at (n, k). -/
theorem agg_at (c : Dev nD) (h : FVec Ideal S50000x128 .f32) (n : Fin 50000) (k : Fin 128) :
    aggT h (sv m c) (dv m c) (wA m c) (sA m c) (ix2 n k) = Spec.agg (gsK m c) (scK m c) (wK m c) (sK m c) (mat h) n k := by
  rw [aggT_apply, wA_vec, sA_vec]
  rfl

/-! ## Region 0's entry -/

theorem w3_vals (c : Dev nD) :
    W3 m ρ c (Proc.devRef .tc main_v1) = sv m c
    ∧ W3 m ρ c (Proc.devRef .tc main_v3) = dv m c
    ∧ W3 m ρ c (Proc.devRef .tc main_v29) = wA m c
    ∧ W3 m ρ c (Proc.devRef .tc main_v30) = sA m c
    ∧ W3 m ρ c (Proc.devRef .tc main_v47) = aggT (m ((c : Thread nD τ).loc main_arg0)) (sv m c) (dv m c) (wA m c) (sA m c)
    ∧ W3 m ρ c (Proc.devRef .tc main_v48) = (shapeCast S1x128 (m ((c : Thread nD τ).loc main_arg4) : FVec Ideal S128 .f32) shapeCasts_S128_S1x128 : FVec Ideal S1x128 .f32)
    ∧ W3 m ρ c (Proc.devRef .tc main_arg3) = m ((c : Thread nD τ).loc main_arg3) := by
  obtain ⟨h1, h3, h13, ha0, ha2, ha3, ha4⟩ := w2_vals m ρ c
  obtain ⟨e29, e30, e47, e48⟩ := s0_vals (W2 m ρ c)
  obtain ⟨k1, k3, k3a⟩ := s0_keep (W2 m ρ c)
  refine ⟨k1.trans h1, k3.trans h3, e29.trans ?_, e30.trans ?_, e47.trans ?_, e48.trans ?_, k3a.trans ha3⟩
  · rw [h13, h1, h3, ha2]
  · rw [h13]
  · rw [ha0, h13, h1, h3, ha2]
  · rw [ha4]

/-! ## The four layers -/

/-- The first region's result array. -/
abbrev L1 (c : Dev nD) : FVec Ideal S50000x128 .f32 := (dat0 (F := Ideal) (V3 m ρ) c).arrAt 3 cfg0.N
/-- The second region's. -/
abbrev L2 (c : Dev nD) : FVec Ideal S50000x128 .f32 := (dat1 (F := Ideal) (V5 m ρ) c).arrAt 3 cfg1.N
/-- The third region's. -/
abbrev L3 (c : Dev nD) : FVec Ideal S50000x64 .f32 := (dat2 (F := Ideal) (V7 m ρ) c).arrAt 3 cfg2.N
/-- The fourth region's. -/
abbrev L4 (c : Dev nD) : FVec Ideal S50000x64 .f32 := (dat3 (F := Ideal) (V9 m ρ) c).arrAt 3 cfg3.N

/-- The first layer: the first region's result is the rectified layer of the input features. -/
theorem L1_mat (c : Dev nD) :
    mat (L1 m ρ c) = Spec.layerK (gsK m c) (scK m c) (wK m c) (sK m c) Spec.relu (mat (m ((c : Thread nD τ).loc main_arg0))) (mat (m ((c : Thread nD τ).loc main_arg3))) (vec (m ((c : Thread nD τ).loc main_arg4))) := by
  obtain ⟨-, -, -, -, h47, h48, ha3⟩ := w3_vals m ρ c
  funext n q
  refine (region0_apply (V3 m ρ) c n q).trans ?_
  unfold layer0At
  refine layerK_relu_bridge (gsK m c) (scK m c) (wK m c) (sK m c) (mat (m ((c : Thread nD τ).loc main_arg0))) _ _ _ (vec (m ((c : Thread nD τ).loc main_arg4))) ?_ ?_ n q |>.trans ?_
  · intro n k
    show W3 m ρ c (Proc.devRef .tc main_v47) (ix2 n k) = _
    rw [h47]; exact agg_at m c _ n k
  · intro q
    show W3 m ρ c (Proc.devRef .tc main_v48) (ix2 (0 : Fin 1) q) = _
    rw [h48]; exact row128_apply _ q
  · show Spec.layerK _ _ _ _ _ _ (mat (W3 m ρ c (Proc.devRef .tc main_arg3))) _ n q = _
    rw [ha3]

/-! ## Region 1's entry and the second layer -/

theorem w4_keep (c : Dev nD) :
    W4 m ρ c (Proc.devRef .tc main_v49) = L1 m ρ c
    ∧ W4 m ρ c (Proc.devRef .tc main_v1) = sv m c
    ∧ W4 m ρ c (Proc.devRef .tc main_v3) = dv m c
    ∧ W4 m ρ c (Proc.devRef .tc main_v29) = wA m c
    ∧ W4 m ρ c (Proc.devRef .tc main_v30) = sA m c := by
  obtain ⟨h1, h3, h29, h30, -, -, -⟩ := w3_vals m ρ c
  exact ⟨W4_arr m ρ c 3, (W4_of_ne m ρ c main_v1 (by decide)).trans h1, (W4_of_ne m ρ c main_v3 (by decide)).trans h3,
    (W4_of_ne m ρ c main_v29 (by decide)).trans h29, (W4_of_ne m ρ c main_v30 (by decide)).trans h30⟩

theorem w5_vals (c : Dev nD) :
    W5 m ρ c (Proc.devRef .tc main_v66) = aggT (L1 m ρ c) (sv m c) (dv m c) (wA m c) (sA m c)
    ∧ W5 m ρ c (Proc.devRef .tc main_v67) = (shapeCast S1x128 (m ((c : Thread nD τ).loc main_arg6) : FVec Ideal S128 .f32) shapeCasts_S128_S1x128 : FVec Ideal S1x128 .f32)
    ∧ W5 m ρ c (Proc.devRef .tc main_v1) = sv m c
    ∧ W5 m ρ c (Proc.devRef .tc main_v3) = dv m c
    ∧ W5 m ρ c (Proc.devRef .tc main_v29) = wA m c
    ∧ W5 m ρ c (Proc.devRef .tc main_v30) = sA m c := by
  obtain ⟨h49, h1, h3, h29, h30⟩ := w4_keep m ρ c
  obtain ⟨e66, e67⟩ := s1_vals (W4 m ρ c)
  obtain ⟨k1, k3, k29, k30, -⟩ := s1_keep (W4 m ρ c)
  have ha6 : W4 m ρ c (Proc.devRef .tc main_arg6) = m ((c : Thread nD τ).loc main_arg6) :=
    (W4_of_ne m ρ c main_arg6 (by decide)).trans (w3_arg6 m ρ c)
  refine ⟨e66.trans ?_, e67.trans ?_, k1.trans h1, k3.trans h3, k29.trans h29, k30.trans h30⟩
  · rw [h49, h1, h3, h29, h30]
  · rw [ha6]

/-- The second layer. -/
theorem L2_mat (c : Dev nD) :
    mat (L2 m ρ c) = Spec.layerK (gsK m c) (scK m c) (wK m c) (sK m c) Spec.relu (mat (L1 m ρ c)) (mat (m ((c : Thread nD τ).loc main_arg5))) (vec (m ((c : Thread nD τ).loc main_arg6))) := by
  obtain ⟨h66, h67, -, -, -, -⟩ := w5_vals m ρ c
  have ha5 := w5_arg5 m ρ c
  funext n q
  refine (region1_apply (V5 m ρ) c n q).trans ?_
  unfold layer1At
  refine layerK_relu_bridge (gsK m c) (scK m c) (wK m c) (sK m c) (mat (L1 m ρ c)) _ _ _ (vec (m ((c : Thread nD τ).loc main_arg6))) ?_ ?_ n q |>.trans ?_
  · intro n k
    show W5 m ρ c (Proc.devRef .tc main_v66) (ix2 n k) = _
    rw [h66]; exact agg_at m c _ n k
  · intro q
    show W5 m ρ c (Proc.devRef .tc main_v67) (ix2 (0 : Fin 1) q) = _
    rw [h67]; exact row128_apply _ q
  · show Spec.layerK _ _ _ _ _ _ (mat (W5 m ρ c (Proc.devRef .tc main_arg5))) _ n q = _
    rw [ha5]

/-! ## Region 2's entry and the third layer -/

theorem w6_keep (c : Dev nD) :
    W6 m ρ c (Proc.devRef .tc main_v68) = L2 m ρ c
    ∧ W6 m ρ c (Proc.devRef .tc main_v1) = sv m c
    ∧ W6 m ρ c (Proc.devRef .tc main_v3) = dv m c
    ∧ W6 m ρ c (Proc.devRef .tc main_v29) = wA m c
    ∧ W6 m ρ c (Proc.devRef .tc main_v30) = sA m c := by
  obtain ⟨-, -, h1, h3, h29, h30⟩ := w5_vals m ρ c
  exact ⟨W6_arr m ρ c 3, (W6_of_ne m ρ c main_v1 (by decide)).trans h1, (W6_of_ne m ρ c main_v3 (by decide)).trans h3,
    (W6_of_ne m ρ c main_v29 (by decide)).trans h29, (W6_of_ne m ρ c main_v30 (by decide)).trans h30⟩

theorem w7_vals (c : Dev nD) :
    W7 m ρ c (Proc.devRef .tc main_v85) = aggT (L2 m ρ c) (sv m c) (dv m c) (wA m c) (sA m c)
    ∧ W7 m ρ c (Proc.devRef .tc main_v86) = (shapeCast S1x64 (m ((c : Thread nD τ).loc main_arg8) : FVec Ideal S64 .f32) shapeCasts_S64_S1x64 : FVec Ideal S1x64 .f32) := by
  obtain ⟨h68, h1, h3, h29, h30⟩ := w6_keep m ρ c
  obtain ⟨e85, e86⟩ := s2_vals (W6 m ρ c)
  have ha8 : W6 m ρ c (Proc.devRef .tc main_arg8) = m ((c : Thread nD τ).loc main_arg8) :=
    (W6_of_ne m ρ c main_arg8 (by decide)).trans (w5_arg8 m ρ c)
  refine ⟨e85.trans ?_, e86.trans ?_⟩
  · rw [h68, h1, h3, h29, h30]
  · rw [ha8]

/-- The third layer (the first head): no rectifier. -/
theorem L3_mat (c : Dev nD) :
    mat (L3 m ρ c) = Spec.layerK (gsK m c) (scK m c) (wK m c) (sK m c) id (mat (L2 m ρ c)) (mat (m ((c : Thread nD τ).loc main_arg7))) (vec (m ((c : Thread nD τ).loc main_arg8))) := by
  obtain ⟨h85, h86⟩ := w7_vals m ρ c
  have ha7 := w7_arg7 m ρ c
  funext n q
  refine (region2_apply (V7 m ρ) c n q).trans ?_
  unfold layer2At
  refine layerK_id_bridge (gsK m c) (scK m c) (wK m c) (sK m c) (mat (L2 m ρ c)) _ _ _ (vec (m ((c : Thread nD τ).loc main_arg8))) ?_ ?_ n q |>.trans ?_
  · intro n k
    show W7 m ρ c (Proc.devRef .tc main_v85) (ix2 n k) = _
    rw [h85]; exact agg_at m c _ n k
  · intro q
    show W7 m ρ c (Proc.devRef .tc main_v86) (ix2 (0 : Fin 1) q) = _
    rw [h86]; exact row64_apply _ q
  · show Spec.layerK _ _ _ _ _ _ (mat (W7 m ρ c (Proc.devRef .tc main_arg7))) _ n q = _
    rw [ha7]

/-! ## Region 3's entry and the fourth layer -/

theorem w9_vals (c : Dev nD) :
    W9 m ρ c (Proc.devRef .tc main_v85) = aggT (L2 m ρ c) (sv m c) (dv m c) (wA m c) (sA m c)
    ∧ W9 m ρ c (Proc.devRef .tc main_v88) = (shapeCast S1x64 (m ((c : Thread nD τ).loc main_arg10) : FVec Ideal S64 .f32) shapeCasts_S64_S1x64 : FVec Ideal S1x64 .f32)
    ∧ W9 m ρ c (Proc.devRef .tc main_v87) = L3 m ρ c := by
  obtain ⟨h85, -⟩ := w7_vals m ρ c
  obtain ⟨k85, k87, -⟩ := s3_keep (W8 m ρ c)
  have e88 := s3_vals (W8 m ρ c)
  have ha10 : W8 m ρ c (Proc.devRef .tc main_arg10) = m ((c : Thread nD τ).loc main_arg10) :=
    (W8_of_ne m ρ c main_arg10 (by decide)).trans (w7_arg10 m ρ c)
  have h8_85 : W8 m ρ c (Proc.devRef .tc main_v85) = W7 m ρ c (Proc.devRef .tc main_v85) :=
    (W8_arr m ρ c 0).trans (((dat2 (F := Ideal) (V7 m ρ) c).arrAt_in 0 rfl cfg2.N).trans (A_eq2 (V7 m ρ) c 0))
  refine ⟨k85.trans (h8_85.trans h85), e88.trans ?_, k87.trans (W8_arr m ρ c 3)⟩
  rw [ha10]

/-- The fourth layer (the second head): no rectifier. -/
theorem L4_mat (c : Dev nD) :
    mat (L4 m ρ c) = Spec.layerK (gsK m c) (scK m c) (wK m c) (sK m c) id (mat (L2 m ρ c)) (mat (m ((c : Thread nD τ).loc main_arg9))) (vec (m ((c : Thread nD τ).loc main_arg10))) := by
  obtain ⟨h85, h88, -⟩ := w9_vals m ρ c
  have ha9 := w9_arg9 m ρ c
  funext n q
  refine (region3_apply (V9 m ρ) c n q).trans ?_
  unfold layer3At
  refine layerK_id_bridge (gsK m c) (scK m c) (wK m c) (sK m c) (mat (L2 m ρ c)) _ _ _ (vec (m ((c : Thread nD τ).loc main_arg10))) ?_ ?_ n q |>.trans ?_
  · intro n k
    show W9 m ρ c (Proc.devRef .tc main_v85) (ix2 n k) = _
    rw [h85]; exact agg_at m c _ n k
  · intro q
    show W9 m ρ c (Proc.devRef .tc main_v88) (ix2 (0 : Fin 1) q) = _
    rw [h88]; exact row64_apply _ q
  · show Spec.layerK _ _ _ _ _ _ (mat (W9 m ρ c (Proc.devRef .tc main_arg9))) _ n q = _
    rw [ha9]

/-! ## The two results -/

/-- The first result is the network's first head, aggregating before each matrix product. -/
theorem out0_apply (c : Dev nD) (n : Fin 50000) (q : Fin 64) :
    (W10 m ρ c (Proc.devRef .tc main_v87) : FVec Ideal S50000x64 .f32) (ix2 n q)
      = outK (srcIdx (ei m c)) (dstIdxG (ei m c)) (dstIdxS (ei m c)) (ea m c) (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) n q := by
  obtain ⟨-, -, h87⟩ := w9_vals m ρ c
  have h10 : W10 m ρ c (Proc.devRef .tc main_v87) = L3 m ρ c := (W10_of_ne m ρ c main_v87 (by decide)).trans h87
  have h := L3_mat m ρ c
  rw [L2_mat, L1_mat] at h
  rw [h10]
  exact congrFun (congrFun h n) q

/-- The second result is the network's second head. -/
theorem out1_apply (c : Dev nD) (n : Fin 50000) (q : Fin 64) :
    (W10 m ρ c (Proc.devRef .tc main_v89) : FVec Ideal S50000x64 .f32) (ix2 n q)
      = outK (srcIdx (ei m c)) (dstIdxG (ei m c)) (dstIdxS (ei m c)) (ea m c) (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg9)) (m ((c : Thread nD τ).loc main_arg10)) n q := by
  have h10 : W10 m ρ c (Proc.devRef .tc main_v89) = L4 m ρ c := W10_arr m ρ c 3
  have h := L4_mat m ρ c
  rw [L2_mat, L1_mat] at h
  rw [h10]
  exact congrFun (congrFun h n) q

end Cert.KernelIdeal.Chain

end
-- ==== Proof.RefValueIdx.lean ====
/-
  The reference's edge positions and normalising factors.

  Each of the four convolutions recomputes, by the same operations on the same two arguments, the edge positions (the
  sources wrapped for picking, the targets wrapped for picking, the targets as they stand for accumulating) and the
  factors (dinv of a node, an edge's factor, a node's self-loop factor). So every later copy is the first
  convolution's array, and the first convolution's factors read at an index are the specification's.
-/
import proofs.«117158_j11854109737492_1_alg».proof.Proof.Gen.ReferenceIdeal.Read
import proofs.«117158_j11854109737492_1_alg».proof.Proof.HostRead

noncomputable section

namespace Cert.ReferenceIdeal.RefValue

open Cert.ReferenceIdeal Cert.ReferenceIdeal.Gen Idealize.ShloMosaic Idealize.ShloMosaic.ValueIdx Cert.Net
open scoped BigOperators

variable (x1 : IVec S2x800000 32) (x2 : FVec Ideal S800000 .f32)

/-! ## The edge positions -/

/-- The sources, wrapped and laid out as a column: the positions the first convolution picks dinv with. -/
theorem src_v20 : Read.val_main_v20 (F := Ideal) x1 = srcIdx x1 := rfl
/-- The targets, wrapped and laid out as a column. -/
theorem dstG_v28 : Read.val_main_v28 (F := Ideal) x1 = dstIdxG x1 := rfl
/-- The targets as they stand, laid out as a column: the positions the degree is accumulated by. -/
theorem dstS_v6 : Read.val_main_v6 (F := Ideal) x1 = dstIdxS x1 := rfl

/-- The positions each convolution picks its product's rows with. -/
theorem src_v36 : Read.val_main_v36 (F := Ideal) x1 = srcIdx x1 := rfl
theorem src_v85 : Read.val_main_v85 (F := Ideal) x1 = srcIdx x1 := rfl
theorem src_v134 : Read.val_main_v134 (F := Ideal) x1 = srcIdx x1 := rfl
theorem src_v182 : Read.val_main_v182 (F := Ideal) x1 = srcIdx x1 := rfl

/-- The positions each convolution accumulates its rows by. -/
theorem dstS_v42 : Read.val_main_v42 (F := Ideal) x1 = dstIdxS x1 := rfl
theorem dstS_v91 : Read.val_main_v91 (F := Ideal) x1 = dstIdxS x1 := rfl
theorem dstS_v140 : Read.val_main_v140 (F := Ideal) x1 = dstIdxS x1 := rfl
theorem dstS_v188 : Read.val_main_v188 (F := Ideal) x1 = dstIdxS x1 := rfl

/-! ## The later convolutions' factors are the first one's -/

/-- The edges' factors. -/
theorem nrm_v79 : Read.val_main_v79 (F := Ideal) x1 x2 = Read.val_main_v30 (F := Ideal) x1 x2 := rfl
theorem nrm_v128 : Read.val_main_v128 (F := Ideal) x1 x2 = Read.val_main_v30 (F := Ideal) x1 x2 := rfl
theorem nrm_v176 : Read.val_main_v176 (F := Ideal) x1 x2 = Read.val_main_v30 (F := Ideal) x1 x2 := rfl

/-- The self-loops' factors. -/
theorem d2_v93 : Read.val_main_v93 (F := Ideal) x1 x2 = Read.val_main_v44 (F := Ideal) x1 x2 := rfl
theorem d2_v142 : Read.val_main_v142 (F := Ideal) x1 x2 = Read.val_main_v44 (F := Ideal) x1 x2 := rfl
theorem d2_v190 : Read.val_main_v190 (F := Ideal) x1 x2 = Read.val_main_v44 (F := Ideal) x1 x2 := rfl

/-! ## The first convolution's factors at an index -/

/-- dinv of node n. -/
theorem dinv_v14 (n : Fin 50000) :
    Read.val_main_v14 (F := Ideal) x1 x2 (ix1 n) = dinvOf (dstIdxS x1) x2 n :=
  HostRead.dinv_apply scatter_S50000_S800000x1_S800000_n_0_0_1 ⟨_, rfl⟩ bcast_S_S50000 (dstIdxS x1) x2
    (Read.val_main_call0_v1 (F := Ideal)) (fun _ => rfl) n

/-- dinv as a function of the node. -/
theorem vec_v14 : vec (Read.val_main_v14 (F := Ideal) x1 x2) = dinvOf (dstIdxS x1) x2 :=
  funext (dinv_v14 x1 x2)

/-- The factor of edge e. -/
theorem nrm_v30 (e : Fin 800000) :
    Read.val_main_v30 (F := Ideal) x1 x2 (ix1 e) = wOf (srcIdx x1) (dstIdxG x1) (dstIdxS x1) x2 e := by
  refine (HostRead.nrm_apply gather_S50000_S800000x1_S800000_n_0_n_n_0_1_1 ⟨_, rfl⟩
    (Read.val_main_v14 (F := Ideal) x1 x2) (srcIdx x1) (dstIdxG x1) x2 e).trans ?_
  unfold wOf Spec.nrm
  rw [vec_v14]
  unfold dinvOf
  rfl

/-- The factor of node n's self-loop. -/
theorem d2_v44 (n : Fin 50000) :
    Read.val_main_v44 (F := Ideal) x1 x2 (ix1 n) = sOf (dstIdxS x1) x2 n := by
  unfold Read.val_main_v44 sOf Spec.d2
  rw [mulf_apply, dinv_v14]
  unfold dinvOf
  rfl

/-- The edges' factors as a function of the edge. -/
theorem vec_v30 : vec (Read.val_main_v30 (F := Ideal) x1 x2) = wOf (srcIdx x1) (dstIdxG x1) (dstIdxS x1) x2 :=
  funext (nrm_v30 x1 x2)

/-- The self-loops' factors as a function of the node. -/
theorem vec_v44 : vec (Read.val_main_v44 (F := Ideal) x1 x2) = sOf (dstIdxS x1) x2 :=
  funext (d2_v44 x1 x2)

end Cert.ReferenceIdeal.RefValue

end
-- ==== Proof.RefValueLayer.lean ====
/-
  One layer of the network in its second arrangement, as host operations compute it, read at an index at the ideal
  values: the features times the weights (a matrix product), then one aggregation of the product (its rows picked by
  source, each times its edge's factor, accumulated into zeros by target, plus the node's own row times its self-loop
  factor), then the bias spread over the rows. For the 50000 nodes and 800000 edges and any widths K and D.
-/
import proofs.«117158_j11854109737492_1_alg».proof.Proof.HostRead
import proofs.«117158_j11854109737492_1_alg».proof.Proof.LibDot

noncomputable section

namespace Cert.ReferenceIdeal.RefValue

open Idealize.ShloMosaic Idealize.ShloMosaic.ValueIdx Cert.Net
open scoped BigOperators

/-- The host's product of two arrays, read as a matrix, is the product of the two matrices. -/
theorem mat_dot {m k n : Nat} (dd : DotDims ⟨2, ![m, k]⟩ ⟨2, ![k, n]⟩ ⟨2, ![m, n]⟩) (hdd : ∃ w, dd = LibDot.dims w)
    (A : FVec Ideal ⟨2, ![m, k]⟩ .f32) (B : FVec Ideal ⟨2, ![k, n]⟩ .f32) :
    mat (Host.dotGeneral dd none A B) = Spec.mm (mat A) (mat B) := by
  obtain ⟨w, rfl⟩ := hdd
  funext a b
  exact LibDot.dotGeneral_apply w none A B a b

/-- Product, aggregation and bias, read at (n, q). -/
theorem layer_apply {K D : Nat}
    (dd : DotDims ⟨2, ![50000, K]⟩ ⟨2, ![K, D]⟩ ⟨2, ![50000, D]⟩) (hdd : ∃ w, dd = LibDot.dims w)
    (gd : GatherDims ⟨2, ![50000, D]⟩ ⟨2, ![800000, 1]⟩ ⟨2, ![800000, D]⟩)
    (hgd : ∃ wf, gd = LibIndexOps.rowsGather 50000 800000 D wf)
    (sd : ScatterDims ⟨2, ![50000, D]⟩ ⟨2, ![800000, 1]⟩ ⟨2, ![800000, D]⟩)
    (hsd : ∃ wf, sd = LibIndexOps.rowsScatter 50000 800000 D wf)
    (hb0 : (⟨0, ![]⟩ : Shape).BroadcastsInDim ⟨2, ![50000, D]⟩ (![] : Fin 0 → Fin 2))
    (hb1 : (⟨1, ![800000]⟩ : Shape).BroadcastsInDim ⟨2, ![800000, 1]⟩ (![0] : Fin 1 → Fin 2))
    (hb2 : (⟨2, ![800000, 1]⟩ : Shape).BroadcastsInDim ⟨2, ![800000, D]⟩ (![0, 1] : Fin 2 → Fin 2))
    (hb3 : (⟨1, ![50000]⟩ : Shape).BroadcastsInDim ⟨2, ![50000, 1]⟩ (![0] : Fin 1 → Fin 2))
    (hb4 : (⟨2, ![50000, 1]⟩ : Shape).BroadcastsInDim ⟨2, ![50000, D]⟩ (![0, 1] : Fin 2 → Fin 2))
    (hc1 : (⟨1, ![D]⟩ : Shape).BroadcastsInDim ⟨2, ![1, D]⟩ (![1] : Fin 1 → Fin 2))
    (hc2 : (⟨2, ![1, D]⟩ : Shape).BroadcastsInDim ⟨2, ![50000, D]⟩ (![0, 1] : Fin 2 → Fin 2))
    (f : FVec Ideal ⟨2, ![50000, K]⟩ .f32) (W : FVec Ideal ⟨2, ![K, D]⟩ .f32) (b : FVec Ideal ⟨1, ![D]⟩ .f32)
    (si di : IVec ⟨2, ![800000, 1]⟩ 32)
    (wA : FVec Ideal ⟨1, ![800000]⟩ .f32) (sA : FVec Ideal ⟨1, ![50000]⟩ .f32) (n : Fin 50000) (q : Fin D) :
    addf
        (addf (Host.scatterAdd sd (broadcastInDim ⟨2, ![50000, D]⟩ ![] hb0 (constant ⟨0, ![]⟩ .f32 0x00000000#32)) di
            (mulf (Host.gather gd (Host.dotGeneral dd none f W) si)
              (broadcastInDim ⟨2, ![800000, D]⟩ ![0, 1] hb2 (broadcastInDim ⟨2, ![800000, 1]⟩ ![0] hb1 wA))))
          (mulf (Host.dotGeneral dd none f W)
            (broadcastInDim ⟨2, ![50000, D]⟩ ![0, 1] hb4 (broadcastInDim ⟨2, ![50000, 1]⟩ ![0] hb3 sA))))
        (broadcastInDim ⟨2, ![50000, D]⟩ ![0, 1] hc2 (broadcastInDim ⟨2, ![1, D]⟩ ![1] hc1 b)) (ix2 n q)
      = Spec.agg (posC si) (posZ di) (vec wA) (vec sA) (Spec.mm (mat f) (mat W)) n q + vec b q := by
  rw [addf_apply, HostRead.agg_apply gd hgd sd hsd hb0 hb1 hb2 hb3 hb4, LibHostRead.bcastRow_apply, mat_dot dd hdd]
  rfl

end Cert.ReferenceIdeal.RefValue

end
-- ==== Proof.RefValueConv1.lean ====
/-
  The reference's first convolution, after its bias and its rectifier, read at an index: one layer of the
  specification's second arrangement on the input features.
-/
import proofs.«117158_j11854109737492_1_alg».proof.Proof.RefValueIdx
import proofs.«117158_j11854109737492_1_alg».proof.Proof.RefValueLayer

noncomputable section

namespace Cert.ReferenceIdeal.RefValue

open Cert.ReferenceIdeal Cert.ReferenceIdeal.Gen Idealize.ShloMosaic Idealize.ShloMosaic.ValueIdx Cert.Net
open scoped BigOperators

variable (x0 : FVec Ideal S50000x128 .f32) (x1 : IVec S2x800000 32) (x2 : FVec Ideal S800000 .f32)
  (x3 : FVec Ideal S128x128 .f32) (x4 : FVec Ideal S128 .f32)

/-- Before the rectifier: the aggregated product plus the bias. -/
theorem conv1_pre (n : Fin 50000) (q : Fin 128) :
    Read.val_main_v51 (F := Ideal) x0 x1 x2 x3 x4 (ix2 n q)
      = Spec.agg (posC (srcIdx x1)) (posZ (dstIdxS x1)) (wOf (srcIdx x1) (dstIdxG x1) (dstIdxS x1) x2) (sOf (dstIdxS x1) x2)
          (Spec.mm (mat x0) (mat x3)) n q + vec x4 q := by
  refine (layer_apply dot_S50000x128_S128x128_S50000x128_1_0_0_1_n_n ⟨_, rfl⟩
    gather_S50000x128_S800000x1_S800000x128_1_0_n_n_0_1_1128 ⟨_, rfl⟩
    scatter_S50000x128_S800000x1_S800000x128_1_0_0_1 ⟨_, rfl⟩
    bcast_S_S50000x128 bcast_S800000_S800000x1_0 bcast_S800000x1_S800000x128_0_1 bcast_S50000_S50000x1_0
    bcast_S50000x1_S50000x128_0_1 bcast_S128_S1x128_1 bcast_S1x128_S50000x128_0_1
    x0 x3 x4 (Read.val_main_v36 (F := Ideal) x1) (Read.val_main_v42 (F := Ideal) x1)
    (Read.val_main_v30 (F := Ideal) x1 x2) (Read.val_main_v44 (F := Ideal) x1 x2) n q).trans ?_
  rw [src_v36, dstS_v42, vec_v30, vec_v44]

/-- The first convolution at (n, q). -/
theorem conv1 (n : Fin 50000) (q : Fin 128) :
    Read.val_main_v52 (F := Ideal) x0 x1 x2 x3 x4 (ix2 n q)
      = Spec.layerR (posC (srcIdx x1)) (posZ (dstIdxS x1)) (wOf (srcIdx x1) (dstIdxG x1) (dstIdxS x1) x2) (sOf (dstIdxS x1) x2)
          Spec.relu (mat x0) (mat x3) (vec x4) n q := by
  unfold Spec.layerR Spec.relu Read.val_main_v52 Read.val_main_call1_v0 Read.val_main_call1_cst
  rw [maximumf_apply, conv1_pre, LibHostRead.bcastConst_apply]

/-- The first convolution as a matrix. -/
theorem mat_v52 :
    mat (Read.val_main_v52 (F := Ideal) x0 x1 x2 x3 x4)
      = Spec.layerR (posC (srcIdx x1)) (posZ (dstIdxS x1)) (wOf (srcIdx x1) (dstIdxG x1) (dstIdxS x1) x2) (sOf (dstIdxS x1) x2)
          Spec.relu (mat x0) (mat x3) (vec x4) :=
  funext fun n => funext fun q => conv1 x0 x1 x2 x3 x4 n q

end Cert.ReferenceIdeal.RefValue

end
-- ==== Proof.RefValueConv2.lean ====
/-
  The reference's second convolution, after its bias and its rectifier, read at an index: one layer of the
  specification's second arrangement on the first convolution's result.
-/
import proofs.«117158_j11854109737492_1_alg».proof.Proof.RefValueIdx
import proofs.«117158_j11854109737492_1_alg».proof.Proof.RefValueLayer

noncomputable section

namespace Cert.ReferenceIdeal.RefValue

open Cert.ReferenceIdeal Cert.ReferenceIdeal.Gen Idealize.ShloMosaic Idealize.ShloMosaic.ValueIdx Cert.Net
open scoped BigOperators

variable (x0 : FVec Ideal S50000x128 .f32) (x1 : IVec S2x800000 32) (x2 : FVec Ideal S800000 .f32)
  (x3 : FVec Ideal S128x128 .f32) (x4 : FVec Ideal S128 .f32) (x5 : FVec Ideal S128x128 .f32) (x6 : FVec Ideal S128 .f32)

/-- Before the rectifier: the aggregated product plus the bias. -/
theorem conv2_pre (n : Fin 50000) (q : Fin 128) :
    Read.val_main_v100 (F := Ideal) x0 x1 x2 x3 x4 x5 x6 (ix2 n q)
      = Spec.agg (posC (srcIdx x1)) (posZ (dstIdxS x1)) (wOf (srcIdx x1) (dstIdxG x1) (dstIdxS x1) x2) (sOf (dstIdxS x1) x2)
          (Spec.mm (mat (Read.val_main_v52 (F := Ideal) x0 x1 x2 x3 x4)) (mat x5)) n q + vec x6 q := by
  refine (layer_apply dot_S50000x128_S128x128_S50000x128_1_0_0_1_n_n ⟨_, rfl⟩
    gather_S50000x128_S800000x1_S800000x128_1_0_n_n_0_1_1128 ⟨_, rfl⟩
    scatter_S50000x128_S800000x1_S800000x128_1_0_0_1 ⟨_, rfl⟩
    bcast_S_S50000x128 bcast_S800000_S800000x1_0 bcast_S800000x1_S800000x128_0_1 bcast_S50000_S50000x1_0
    bcast_S50000x1_S50000x128_0_1 bcast_S128_S1x128_1 bcast_S1x128_S50000x128_0_1
    (Read.val_main_v52 (F := Ideal) x0 x1 x2 x3 x4) x5 x6 (Read.val_main_v85 (F := Ideal) x1) (Read.val_main_v91 (F := Ideal) x1)
    (Read.val_main_v79 (F := Ideal) x1 x2) (Read.val_main_v93 (F := Ideal) x1 x2) n q).trans ?_
  rw [src_v85, dstS_v91, nrm_v79, d2_v93, vec_v30, vec_v44]

/-- The second convolution at (n, q). -/
theorem conv2 (n : Fin 50000) (q : Fin 128) :
    Read.val_main_v101 (F := Ideal) x0 x1 x2 x3 x4 x5 x6 (ix2 n q)
      = Spec.layerR (posC (srcIdx x1)) (posZ (dstIdxS x1)) (wOf (srcIdx x1) (dstIdxG x1) (dstIdxS x1) x2) (sOf (dstIdxS x1) x2)
          Spec.relu (mat (Read.val_main_v52 (F := Ideal) x0 x1 x2 x3 x4)) (mat x5) (vec x6) n q := by
  unfold Spec.layerR Spec.relu Read.val_main_v101 Read.val_main_call3_v0 Read.val_main_call3_cst
  rw [maximumf_apply, conv2_pre, LibHostRead.bcastConst_apply]

/-- The second convolution as a matrix. -/
theorem mat_v101 :
    mat (Read.val_main_v101 (F := Ideal) x0 x1 x2 x3 x4 x5 x6)
      = Spec.layerR (posC (srcIdx x1)) (posZ (dstIdxS x1)) (wOf (srcIdx x1) (dstIdxG x1) (dstIdxS x1) x2) (sOf (dstIdxS x1) x2)
          Spec.relu (mat (Read.val_main_v52 (F := Ideal) x0 x1 x2 x3 x4)) (mat x5) (vec x6) :=
  funext fun n => funext fun q => conv2 x0 x1 x2 x3 x4 x5 x6 n q

end Cert.ReferenceIdeal.RefValue

end
-- ==== Proof.RefValueConv3.lean ====
/-
  The reference's third convolution (its first result), read at an index: one layer of the specification's second
  arrangement, with no activation, on the second convolution's result.
-/
import proofs.«117158_j11854109737492_1_alg».proof.Proof.RefValueIdx
import proofs.«117158_j11854109737492_1_alg».proof.Proof.RefValueLayer

noncomputable section

namespace Cert.ReferenceIdeal.RefValue

open Cert.ReferenceIdeal Cert.ReferenceIdeal.Gen Idealize.ShloMosaic Idealize.ShloMosaic.ValueIdx Cert.Net
open scoped BigOperators

variable (x0 : FVec Ideal S50000x128 .f32) (x1 : IVec S2x800000 32) (x2 : FVec Ideal S800000 .f32)
  (x3 : FVec Ideal S128x128 .f32) (x4 : FVec Ideal S128 .f32) (x5 : FVec Ideal S128x128 .f32) (x6 : FVec Ideal S128 .f32)
  (x7 : FVec Ideal S128x64 .f32) (x8 : FVec Ideal S64 .f32)

/-- The third convolution at (n, q). -/
theorem conv3 (n : Fin 50000) (q : Fin 64) :
    Read.val_main_v149 (F := Ideal) x0 x1 x2 x3 x4 x5 x6 x7 x8 (ix2 n q)
      = Spec.layerR (posC (srcIdx x1)) (posZ (dstIdxS x1)) (wOf (srcIdx x1) (dstIdxG x1) (dstIdxS x1) x2) (sOf (dstIdxS x1) x2)
          id (mat (Read.val_main_v101 (F := Ideal) x0 x1 x2 x3 x4 x5 x6)) (mat x7) (vec x8) n q := by
  unfold Spec.layerR
  rw [id_eq]
  refine (layer_apply dot_S50000x128_S128x64_S50000x64_1_0_0_1_n_n ⟨_, rfl⟩
    gather_S50000x64_S800000x1_S800000x64_1_0_n_n_0_1_164 ⟨_, rfl⟩
    scatter_S50000x64_S800000x1_S800000x64_1_0_0_1 ⟨_, rfl⟩
    bcast_S_S50000x64 bcast_S800000_S800000x1_0 bcast_S800000x1_S800000x64_0_1 bcast_S50000_S50000x1_0
    bcast_S50000x1_S50000x64_0_1 bcast_S64_S1x64_1 bcast_S1x64_S50000x64_0_1
    (Read.val_main_v101 (F := Ideal) x0 x1 x2 x3 x4 x5 x6) x7 x8 (Read.val_main_v134 (F := Ideal) x1) (Read.val_main_v140 (F := Ideal) x1)
    (Read.val_main_v128 (F := Ideal) x1 x2) (Read.val_main_v142 (F := Ideal) x1 x2) n q).trans ?_
  rw [src_v134, dstS_v140, nrm_v128, d2_v142, vec_v30, vec_v44]

end Cert.ReferenceIdeal.RefValue

end
-- ==== Proof.RefValueConv4.lean ====
/-
  The reference's fourth convolution (its second result), read at an index: one layer of the specification's second
  arrangement, with no activation, on the second convolution's result.
-/
import proofs.«117158_j11854109737492_1_alg».proof.Proof.RefValueIdx
import proofs.«117158_j11854109737492_1_alg».proof.Proof.RefValueLayer

noncomputable section

namespace Cert.ReferenceIdeal.RefValue

open Cert.ReferenceIdeal Cert.ReferenceIdeal.Gen Idealize.ShloMosaic Idealize.ShloMosaic.ValueIdx Cert.Net
open scoped BigOperators

variable (x0 : FVec Ideal S50000x128 .f32) (x1 : IVec S2x800000 32) (x2 : FVec Ideal S800000 .f32)
  (x3 : FVec Ideal S128x128 .f32) (x4 : FVec Ideal S128 .f32) (x5 : FVec Ideal S128x128 .f32) (x6 : FVec Ideal S128 .f32)
  (x9 : FVec Ideal S128x64 .f32) (x10 : FVec Ideal S64 .f32)

/-- The fourth convolution at (n, q). -/
theorem conv4 (n : Fin 50000) (q : Fin 64) :
    Read.val_main_v197 (F := Ideal) x0 x1 x2 x3 x4 x5 x6 x9 x10 (ix2 n q)
      = Spec.layerR (posC (srcIdx x1)) (posZ (dstIdxS x1)) (wOf (srcIdx x1) (dstIdxG x1) (dstIdxS x1) x2) (sOf (dstIdxS x1) x2)
          id (mat (Read.val_main_v101 (F := Ideal) x0 x1 x2 x3 x4 x5 x6)) (mat x9) (vec x10) n q := by
  unfold Spec.layerR
  rw [id_eq]
  refine (layer_apply dot_S50000x128_S128x64_S50000x64_1_0_0_1_n_n ⟨_, rfl⟩
    gather_S50000x64_S800000x1_S800000x64_1_0_n_n_0_1_164 ⟨_, rfl⟩
    scatter_S50000x64_S800000x1_S800000x64_1_0_0_1 ⟨_, rfl⟩
    bcast_S_S50000x64 bcast_S800000_S800000x1_0 bcast_S800000x1_S800000x64_0_1 bcast_S50000_S50000x1_0
    bcast_S50000x1_S50000x64_0_1 bcast_S64_S1x64_1 bcast_S1x64_S50000x64_0_1
    (Read.val_main_v101 (F := Ideal) x0 x1 x2 x3 x4 x5 x6) x9 x10 (Read.val_main_v182 (F := Ideal) x1) (Read.val_main_v188 (F := Ideal) x1)
    (Read.val_main_v176 (F := Ideal) x1 x2) (Read.val_main_v190 (F := Ideal) x1 x2) n q).trans ?_
  rw [src_v182, dstS_v188, nrm_v176, d2_v190, vec_v30, vec_v44]

end Cert.ReferenceIdeal.RefValue

end
-- ==== Proof.RefValue.lean ====
/-
  The reference's two results read at an index are the specification's network in its second arrangement: the four
  convolutions composed, the third and the fourth each on the second one's result.
-/
import proofs.«117158_j11854109737492_1_alg».proof.Proof.RefValueConv1
import proofs.«117158_j11854109737492_1_alg».proof.Proof.RefValueConv2
import proofs.«117158_j11854109737492_1_alg».proof.Proof.RefValueConv3
import proofs.«117158_j11854109737492_1_alg».proof.Proof.RefValueConv4

noncomputable section

namespace Cert.ReferenceIdeal.RefValue

open Cert.ReferenceIdeal Cert.ReferenceIdeal.Gen Idealize.ShloMosaic Idealize.ShloMosaic.ValueIdx Cert.Net
open scoped BigOperators

variable (x0 : FVec Ideal S50000x128 .f32) (x1 : IVec S2x800000 32) (x2 : FVec Ideal S800000 .f32)
  (x3 : FVec Ideal S128x128 .f32) (x4 : FVec Ideal S128 .f32) (x5 : FVec Ideal S128x128 .f32) (x6 : FVec Ideal S128 .f32)

/-- The first result at (n, q). -/
theorem ref_out0 (x7 : FVec Ideal S128x64 .f32) (x8 : FVec Ideal S64 .f32) (n : Fin 50000) (q : Fin 64) :
    Read.val_main_v149 (F := Ideal) x0 x1 x2 x3 x4 x5 x6 x7 x8 (ix2 n q)
      = Net.outR (Net.srcIdx x1) (Net.dstIdxG x1) (Net.dstIdxS x1) x2 x0 x3 x4 x5 x6 x7 x8 n q := by
  unfold Net.outR Spec.netR
  rw [conv3, mat_v101, mat_v52]

/-- The second result at (n, q). -/
theorem ref_out1 (x9 : FVec Ideal S128x64 .f32) (x10 : FVec Ideal S64 .f32) (n : Fin 50000) (q : Fin 64) :
    Read.val_main_v197 (F := Ideal) x0 x1 x2 x3 x4 x5 x6 x9 x10 (ix2 n q)
      = Net.outR (Net.srcIdx x1) (Net.dstIdxG x1) (Net.dstIdxS x1) x2 x0 x3 x4 x5 x6 x9 x10 n q := by
  unfold Net.outR Spec.netR
  rw [conv4, mat_v101, mat_v52]

end Cert.ReferenceIdeal.RefValue

end
-- ==== Proof.SpecLaw.lean ====
/-
  The law of the graph convolution on the extended reals: aggregating the features and then multiplying by the
  weights is multiplying first and then aggregating, wherever every entry involved is a real number.

  On the extended reals the product does not distribute over sums at the infinities, so the law is stated for real
  entries (IsR). The reals are closed under every operation of a layer, so the realness of the hidden layers is
  carried from the inputs through the layers, and the two arrangements of the whole network agree.
-/
import proofs.«117158_j11854109737492_1_alg».proof.Proof.Spec

noncomputable section

namespace Cert.Spec

open Idealize.ShloMosaic
open scoped BigOperators

/-! ## The reals are closed under the operations -/

theorem isR_coe (r : ℝ) : IsR (r : EReal) := ⟨r, rfl⟩

theorem isR_zero : IsR 0 := ⟨0, rfl⟩

theorem isR_one : IsR 1 := ⟨1, rfl⟩

theorem isR_add {x y : EReal} (hx : IsR x) (hy : IsR y) : IsR (x + y) := by
  obtain ⟨a, rfl⟩ := hx
  obtain ⟨b, rfl⟩ := hy
  exact ⟨a + b, (EReal.coe_add a b).symm⟩

theorem isR_mul {x y : EReal} (hx : IsR x) (hy : IsR y) : IsR (x * y) := by
  obtain ⟨a, rfl⟩ := hx
  obtain ⟨b, rfl⟩ := hy
  exact ⟨a * b, (EReal.coe_mul a b).symm⟩

/-- The coercion of a finite sum of reals is the sum of the coercions. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

theorem isR_sum {ι : Type} (t : Finset ι) (g : ι → EReal) (h : ∀ i ∈ t, IsR (g i)) : IsR (∑ i ∈ t, g i) := by
  classical
  induction t using Finset.induction_on with
  | empty => simpa using isR_zero
  | insert a t ha ih =>
    rw [Finset.sum_insert ha]
    exact isR_add (h a (Finset.mem_insert_self a t)) (ih fun i hi => h i (Finset.mem_insert_of_mem hi))

theorem isR_sum_univ {ι : Type} [Fintype ι] (g : ι → EReal) (h : ∀ i, IsR (g i)) : IsR (∑ i, g i) :=
  isR_sum _ _ fun i _ => h i

theorem isR_ite {p : Prop} [Decidable p] {x y : EReal} (hx : IsR x) (hy : IsR y) : IsR (if p then x else y) := by
  split_ifs <;> assumption

theorem isR_max {x y : EReal} (hx : IsR x) (hy : IsR y) : IsR (max x y) := by
  rcases max_choice x y with h | h <;> rw [h] <;> assumption

theorem isR_select {c : BitVec 1} {x y : EReal} (hx : IsR x) (hy : IsR y) : IsR (Scalar.select c x y) := by
  unfold Scalar.select
  exact isR_ite hx hy

theorem isR_pow {x y : EReal} (hx : IsR x) (hy : IsR y) : IsR (Ideal.pow x y) := by
  obtain ⟨a, rfl⟩ := hx
  obtain ⟨b, rfl⟩ := hy
  exact ⟨Real.rpow a b, rfl⟩

/-! ## The three float words -/

theorem zeroW_eq : zeroW = 0 := Ideal.ofBits_zero_f32

theorem oneW_eq : oneW = 1 := by
  simp [Ideal.ofBits, Ideal.ieee]
  rw [← EReal.coe_mul, ← EReal.coe_one]
  congr 1
  norm_num

theorem mhalfW_eq : mhalfW = ((-(1 / 2) : ℝ) : EReal) := by
  simp [Ideal.ofBits, Ideal.ieee]
  rw [← EReal.coe_mul]
  congr 1
  norm_num

theorem isR_zeroW : IsR zeroW := zeroW_eq ▸ isR_zero

theorem isR_oneW : IsR oneW := oneW_eq ▸ isR_one

theorem isR_mhalfW : IsR mhalfW := mhalfW_eq ▸ isR_coe _

/-! ## The normalising factors of a graph with real weights are real -/

section factors

variable {N M : Nat} (gs gd : Fin M → Fin N) (sc : Fin M → Int) (ea : Fin M → EReal)

theorem deg_isR (hea : ∀ e, IsR (ea e)) (n : Fin N) : IsR (deg sc ea n) :=
  isR_add (isR_add isR_zeroW (isR_sum _ _ fun e _ => isR_ite (hea e) isR_zero)) isR_oneW

theorem dinv_isR (hea : ∀ e, IsR (ea e)) (n : Fin N) : IsR (dinv sc ea n) :=
  isR_select (isR_pow (deg_isR sc ea hea n) isR_mhalfW) isR_zeroW

theorem nrm_isR (hea : ∀ e, IsR (ea e)) (e : Fin M) : IsR (nrm gs gd sc ea e) :=
  isR_mul (isR_mul (dinv_isR sc ea hea (gs e)) (hea e)) (dinv_isR sc ea hea (gd e))

theorem d2_isR (hea : ∀ e, IsR (ea e)) (n : Fin N) : IsR (d2 sc ea n) :=
  isR_mul (dinv_isR sc ea hea n) (dinv_isR sc ea hea n)

end factors

/-! ## One layer: the two arrangements agree on real entries -/

section layer

variable {N M : Nat} (gs : Fin M → Fin N) (sc : Fin M → Int)

/-- An aggregation of real features with real factors is the same expression over the reals. -/
theorem agg_coe {D : Nat} (w : Fin M → ℝ) (s : Fin N → ℝ) (F : Fin N → Fin D → ℝ) (n : Fin N) (q : Fin D) :
    agg gs sc (fun e => (w e : EReal)) (fun n => (s n : EReal)) (fun n q => (F n q : EReal)) n q
      = (((∑ e : Fin M, if sc e = (n.val : Int) then F (gs e) q * w e else 0) + F n q * s n : ℝ) : EReal) := by
  unfold agg
  rw [zeroW_eq, zero_add, EReal.coe_add, EReal.coe_mul, coe_sum]
  congr 1
  refine Finset.sum_congr rfl fun e _ => ?_
  split_ifs
  · rw [EReal.coe_mul]
  · rfl

/-- A matrix product of real matrices is the same expression over the reals. -/
theorem mm_coe {K D : Nat} (X : Fin N → Fin K → ℝ) (W : Fin K → Fin D → ℝ) (n : Fin N) (q : Fin D) :
    mm (fun n k => (X n k : EReal)) (fun k q => (W k q : EReal)) n q = ((∑ k : Fin K, X n k * W k q : ℝ) : EReal) := by
  unfold mm
  rw [coe_sum]
  exact Finset.sum_congr rfl fun k _ => (EReal.coe_mul _ _).symm

/-- Over the reals: the product distributes over both sums and the two sums exchange. -/
theorem agg_mm_real {K D : Nat} (w : Fin M → ℝ) (s : Fin N → ℝ) (F : Fin N → Fin K → ℝ) (W : Fin K → Fin D → ℝ)
    (n : Fin N) (q : Fin D) :
    (∑ k : Fin K, ((∑ e : Fin M, if sc e = (n.val : Int) then F (gs e) k * w e else 0) + F n k * s n) * W k q)
      = (∑ e : Fin M, if sc e = (n.val : Int) then (∑ k : Fin K, F (gs e) k * W k q) * w e else 0)
          + (∑ k : Fin K, F n k * W k q) * s n := by
  simp only [add_mul, Finset.sum_add_distrib]
  congr 1
  · simp only [Finset.sum_mul]
    rw [Finset.sum_comm]
    refine Finset.sum_congr rfl fun e _ => ?_
    split_ifs
    · exact Finset.sum_congr rfl fun k _ => by ring
    · simp
  · rw [Finset.sum_mul]
    exact Finset.sum_congr rfl fun k _ => by ring

variable (w : Fin M → EReal) (s : Fin N → EReal)

/-- Aggregating and then multiplying by the weights is multiplying and then aggregating, on real entries. -/
theorem mm_agg_eq_agg_mm {K D : Nat} (f : Fin N → Fin K → EReal) (W : Fin K → Fin D → EReal)
    (hw : ∀ e, IsR (w e)) (hs : ∀ n, IsR (s n)) (hf : ∀ n k, IsR (f n k)) (hW : ∀ k q, IsR (W k q))
    (n : Fin N) (q : Fin D) :
    mm (agg gs sc w s f) W n q = agg gs sc w s (mm f W) n q := by
  choose w' hw' using hw
  choose s' hs' using hs
  choose F hF using hf
  choose W' hW' using hW
  obtain rfl : w = fun e => (w' e : EReal) := funext hw'
  obtain rfl : s = fun n => (s' n : EReal) := funext hs'
  obtain rfl : f = fun n k => (F n k : EReal) := funext fun n => funext (hF n)
  obtain rfl : W = fun k q => (W' k q : EReal) := funext fun k => funext (hW' k)
  have h1 : agg gs sc (fun e => (w' e : EReal)) (fun n => (s' n : EReal)) (fun n k => (F n k : EReal))
      = fun n k => (((∑ e : Fin M, if sc e = (n.val : Int) then F (gs e) k * w' e else 0) + F n k * s' n : ℝ) : EReal) :=
    funext fun n => funext fun k => agg_coe gs sc w' s' F n k
  have h2 : mm (fun n k => (F n k : EReal)) (fun k q => (W' k q : EReal))
      = fun n q => ((∑ k : Fin K, F n k * W' k q : ℝ) : EReal) :=
    funext fun n => funext fun q => mm_coe F W' n q
  rw [h1, h2, mm_coe, agg_coe, agg_mm_real]

/-- The two arrangements of a layer agree on real entries, whatever the activation and the bias. -/
theorem layerK_eq_layerR {K D : Nat} (act : EReal → EReal) (f : Fin N → Fin K → EReal) (W : Fin K → Fin D → EReal)
    (b : Fin D → EReal) (hw : ∀ e, IsR (w e)) (hs : ∀ n, IsR (s n)) (hf : ∀ n k, IsR (f n k))
    (hW : ∀ k q, IsR (W k q)) (n : Fin N) (q : Fin D) :
    layerK gs sc w s act f W b n q = layerR gs sc w s act f W b n q := by
  unfold layerK layerR
  rw [mm_agg_eq_agg_mm gs sc w s f W hw hs hf hW n q]

/-! ## A layer of real entries is real -/

theorem mm_isR {K D : Nat} (x : Fin N → Fin K → EReal) (W : Fin K → Fin D → EReal) (hx : ∀ n k, IsR (x n k))
    (hW : ∀ k q, IsR (W k q)) (n : Fin N) (q : Fin D) : IsR (mm x W n q) :=
  isR_sum _ _ fun k _ => isR_mul (hx n k) (hW k q)

theorem agg_isR {D : Nat} (f : Fin N → Fin D → EReal) (hw : ∀ e, IsR (w e)) (hs : ∀ n, IsR (s n))
    (hf : ∀ n q, IsR (f n q)) (n : Fin N) (q : Fin D) : IsR (agg gs sc w s f n q) :=
  isR_add (isR_add isR_zeroW (isR_sum _ _ fun e _ => isR_ite (isR_mul (hf (gs e) q) (hw e)) isR_zero))
    (isR_mul (hf n q) (hs n))

theorem relu_isR {v : EReal} (hv : IsR v) : IsR (relu v) := isR_max hv isR_zeroW

theorem id_isR {v : EReal} (hv : IsR v) : IsR (id v) := hv

/-- The second arrangement of a layer is real on real entries, through an activation that keeps the reals. -/
theorem layerR_isR {K D : Nat} (act : EReal → EReal) (f : Fin N → Fin K → EReal) (W : Fin K → Fin D → EReal)
    (b : Fin D → EReal) (hact : ∀ v, IsR v → IsR (act v)) (hw : ∀ e, IsR (w e)) (hs : ∀ n, IsR (s n))
    (hf : ∀ n k, IsR (f n k)) (hW : ∀ k q, IsR (W k q)) (hb : ∀ q, IsR (b q)) (n : Fin N) (q : Fin D) :
    IsR (layerR gs sc w s act f W b n q) :=
  hact _ (isR_add (agg_isR gs sc w s (mm f W) hw hs (mm_isR f W hf hW) n q) (hb q))

theorem layerR_relu_isR {K D : Nat} (f : Fin N → Fin K → EReal) (W : Fin K → Fin D → EReal) (b : Fin D → EReal)
    (hw : ∀ e, IsR (w e)) (hs : ∀ n, IsR (s n)) (hf : ∀ n k, IsR (f n k)) (hW : ∀ k q, IsR (W k q))
    (hb : ∀ q, IsR (b q)) (n : Fin N) (q : Fin D) : IsR (layerR gs sc w s relu f W b n q) :=
  layerR_isR gs sc w s relu f W b (fun _ => relu_isR) hw hs hf hW hb n q

theorem layerR_id_isR {K D : Nat} (f : Fin N → Fin K → EReal) (W : Fin K → Fin D → EReal) (b : Fin D → EReal)
    (hw : ∀ e, IsR (w e)) (hs : ∀ n, IsR (s n)) (hf : ∀ n k, IsR (f n k)) (hW : ∀ k q, IsR (W k q))
    (hb : ∀ q, IsR (b q)) (n : Fin N) (q : Fin D) : IsR (layerR gs sc w s id f W b n q) :=
  layerR_isR gs sc w s id f W b (fun _ => id_isR) hw hs hf hW hb n q

end layer

/-! ## The network: the two arrangements agree on real inputs -/

section net

variable {N M : Nat}

theorem netK_eq_netR {K0 K1 K2 D : Nat} (gs : Fin M → Fin N) (sc : Fin M → Int) (w : Fin M → EReal)
    (s : Fin N → EReal) (x : Fin N → Fin K0 → EReal) (W1 : Fin K0 → Fin K1 → EReal) (b1 : Fin K1 → EReal)
    (W2 : Fin K1 → Fin K2 → EReal) (b2 : Fin K2 → EReal) (W3 : Fin K2 → Fin D → EReal) (b3 : Fin D → EReal)
    (hw : ∀ e, IsR (w e)) (hs : ∀ n, IsR (s n)) (hx : ∀ n k, IsR (x n k))
    (hW1 : ∀ k q, IsR (W1 k q)) (hb1 : ∀ q, IsR (b1 q)) (hW2 : ∀ k q, IsR (W2 k q)) (hb2 : ∀ q, IsR (b2 q))
    (hW3 : ∀ k q, IsR (W3 k q)) :
    netK gs sc w s x W1 b1 W2 b2 W3 b3 = netR gs sc w s x W1 b1 W2 b2 W3 b3 := by
  have e1 : layerK gs sc w s relu x W1 b1 = layerR gs sc w s relu x W1 b1 :=
    funext fun n => funext fun q => layerK_eq_layerR gs sc w s relu x W1 b1 hw hs hx hW1 n q
  have r1 : ∀ n k, IsR (layerR gs sc w s relu x W1 b1 n k) :=
    layerR_relu_isR gs sc w s x W1 b1 hw hs hx hW1 hb1
  have e2 : layerK gs sc w s relu (layerR gs sc w s relu x W1 b1) W2 b2
      = layerR gs sc w s relu (layerR gs sc w s relu x W1 b1) W2 b2 :=
    funext fun n => funext fun q => layerK_eq_layerR gs sc w s relu _ W2 b2 hw hs r1 hW2 n q
  have r2 : ∀ n k, IsR (layerR gs sc w s relu (layerR gs sc w s relu x W1 b1) W2 b2 n k) :=
    layerR_relu_isR gs sc w s _ W2 b2 hw hs r1 hW2 hb2
  have e3 : layerK gs sc w s id (layerR gs sc w s relu (layerR gs sc w s relu x W1 b1) W2 b2) W3 b3
      = layerR gs sc w s id (layerR gs sc w s relu (layerR gs sc w s relu x W1 b1) W2 b2) W3 b3 :=
    funext fun n => funext fun q => layerK_eq_layerR gs sc w s id _ W3 b3 hw hs r2 hW3 n q
  unfold netK netR
  rw [e1, e2, e3]

end net

end Cert.Spec

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  From "every float input is finite" to "every entry of every float input is a real number".

  The precondition is a conjunction, one conjunct per float input a: all over the entries of a of |a| < +infinity,
  the comparison taken against the broadcast float word of +infinity. A conjunction that is 1 has every conjunct 1; an
  all-reduction by "and" that is 1 met a 1 at every entry; and an extended real whose absolute value is below
  +infinity is neither infinity, so it is a real number.
-/
import Idealize.ShloMosaic.Lib.ReduceAll
import Idealize.ShloMosaic.Lib.ValueIdx
import proofs.«117158_j11854109737492_1_alg».proof.Proof.Gen.Pre_finite_inputs
import proofs.«117158_j11854109737492_1_alg».proof.Proof.Spec
import proofs.«117158_j11854109737492_1_alg».proof.Proof.LibRealEntry

noncomputable section

namespace Cert.Finite

open Idealize.ShloMosaic
open Cert.Pre_finite_inputs
open Cert.Spec (IsR)

/-- The shape with no axes has exactly one index. -/
instance : Subsingleton S_.Idx := ⟨fun a b => funext fun d => d.elim0⟩

/-- One conjunct of the precondition, over an arbitrary shape: if the all-reduction of |a| < +infinity is 1, every
    entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ j, IsR (a j) := by
  intro j
  have hj := Host.reduce_andi_all _ _ hr hu _ e j
  exact Cert.LibRealEntry.real_of_abs_lt_inf (a j) hj

/-- The precondition holds: every entry of every float input is a real number. -/
theorem entries_real (a0 : FVec Ideal S50000x128 .f32) (a1 : IVec S2x800000 32) (a2 : FVec Ideal S800000 .f32)
    (a3 : FVec Ideal S128x128 .f32) (a4 : FVec Ideal S128 .f32) (a5 : FVec Ideal S128x128 .f32)
    (a6 : FVec Ideal S128 .f32) (a7 : FVec Ideal S128x64 .f32) (a8 : FVec Ideal S64 .f32)
    (a9 : FVec Ideal S128x64 .f32) (a10 : FVec Ideal S64 .f32)
    (h : Cert.Pre_finite_inputs.fn (F := Ideal) a0 a1 a2 a3 a4 a5 a6 a7 a8 a9 a10 = fun _ => 1#1) :
    (∀ j, IsR (a0 j)) ∧ (∀ j, IsR (a2 j)) ∧ (∀ j, IsR (a3 j)) ∧ (∀ j, IsR (a4 j)) ∧ (∀ j, IsR (a5 j)) ∧
      (∀ j, IsR (a6 j)) ∧ (∀ j, IsR (a7 j)) ∧ (∀ j, IsR (a8 j)) ∧ (∀ j, IsR (a9 j)) ∧ (∀ j, IsR (a10 j)) := by
  have h0 := congrFun h ValueIdx.ix0
  dsimp only [fn, fn_part1, fn_part2, Idealize.ShloMosaic.andi] at h0
  simp only [IntOp.andi_eq_one] at h0
  obtain ⟨⟨⟨⟨⟨⟨⟨⟨⟨e0, e2⟩, e3⟩, e4⟩, e5⟩, e6⟩, e7⟩, e8⟩, e9⟩, e10⟩ := h0
  exact ⟨all_real a0 _ _ _ e0, all_real a2 _ _ _ e2, all_real a3 _ _ _ e3, all_real a4 _ _ _ e4,
    all_real a5 _ _ _ e5, all_real a6 _ _ _ e6, all_real a7 _ _ _ e7, all_real a8 _ _ _ e8,
    all_real a9 _ _ _ e9, all_real a10 _ _ _ e10⟩

end Cert.Finite

end
-- ==== Proof.lean ====
/-
  The certificate of a three-layer graph convolution network with weighted edges, self-loops and symmetric
  normalisation — two rectified layers and two linear heads over 50000 nodes and 800000 edges — whose four dense
  products run as kernels and whose edge-wise picks and accumulations run on the host, against its jnp reference.

  The kernel program aggregates the raw features along the edges and multiplies the aggregated rows by a layer's
  weights inside the kernel; the reference multiplies the features by the weights first and aggregates the products.
  The two agree because aggregation is linear, which on the extended reals holds when every entry is a real number:
  the inputs are real by the precondition, the graph's factors (a degree, its power -1/2, products of those) are then
  real, and each layer of real features is real, so the law applies layer after layer (Proof/SpecLaw.lean).

  The frames of the two kernel programs are the generated ones. The reference's frame is its generated run with the
  results dropped. The idealized kernel's values are read off the generated frame's run (Proof/KernelRun.lean): each
  region's result array is the layer of its entry arrays (Proof/Region0..3.lean), the host stretches between the
  regions are read as terms (Proof/ChainA.lean, ChainS.lean) and at an index (Proof/HostRead.lean, ChainRead.lean),
  and the chain from the launch to the two results is Proof/ChainB.lean. The reference's results at an index are
  Proof/RefValue.lean, over the generated run and its read-at-an-index lemmas.
-/
import proofs.«117158_j11854109737492_1_alg».proof.Defs
import proofs.«117158_j11854109737492_1_alg».proof.Proof.Gen.Kernel
import proofs.«117158_j11854109737492_1_alg».proof.Proof.Gen.Kernel.Frame
import proofs.«117158_j11854109737492_1_alg».proof.Proof.Gen.KernelIdeal
import proofs.«117158_j11854109737492_1_alg».proof.Proof.Gen.KernelIdeal.Frame
import proofs.«117158_j11854109737492_1_alg».proof.Proof.Gen.ReferenceIdeal
import proofs.«117158_j11854109737492_1_alg».proof.Proof.Gen.ReferenceIdeal.Run
import proofs.«117158_j11854109737492_1_alg».proof.Proof.Gen.ReferenceIdeal.Read
import proofs.«117158_j11854109737492_1_alg».proof.Proof.Gen.Pre_finite_inputs
import proofs.«117158_j11854109737492_1_alg».proof.Proof.KernelRun
import proofs.«117158_j11854109737492_1_alg».proof.Proof.ChainB
import proofs.«117158_j11854109737492_1_alg».proof.Proof.RefValue
import proofs.«117158_j11854109737492_1_alg».proof.Proof.SpecLaw
import proofs.«117158_j11854109737492_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.Spec Cert.Net

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The two arrangements of the network agree on inputs that satisfy the precondition. -/
theorem outR_eq_outK {D : Nat}
    (ei : IVec ⟨2, ![2, 800000]⟩ 32) (ea : (⟨1, ![800000]⟩ : Shape).Idx → EReal)
    (x : (⟨2, ![50000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, D]⟩ : Shape).Idx → EReal) (b3 : (⟨1, ![D]⟩ : Shape).Idx → EReal)
    (hea : ∀ j, IsR (ea j)) (hx : ∀ j, IsR (x j)) (hW1 : ∀ j, IsR (W1 j)) (hb1 : ∀ j, IsR (b1 j))
    (hW2 : ∀ j, IsR (W2 j)) (hb2 : ∀ j, IsR (b2 j)) (hW3 : ∀ j, IsR (W3 j)) :
    outR (srcIdx ei) (dstIdxG ei) (dstIdxS ei) ea x W1 b1 W2 b2 W3 b3
      = outK (srcIdx ei) (dstIdxG ei) (dstIdxS ei) ea x W1 b1 W2 b2 W3 b3 := by
  unfold outR outK
  refine (netK_eq_netR _ _ _ _ _ _ _ _ _ _ _ ?_ ?_ ?_ ?_ ?_ ?_ ?_ ?_).symm
  · exact fun e => nrm_isR _ _ _ _ (fun e => hea _) e
  · exact fun n => d2_isR _ _ (fun e => hea _) n
  · exact fun n k => hx _
  · exact fun k q => hW1 _
  · exact fun q => hb1 _
  · exact fun k q => hW2 _
  · exact fun q => hb2 _
  · exact fun k q => hW3 _

theorem algebraic : Cert.algebraic_KernelIdeal_ReferenceIdeal := by
  intro m ρ m' ρ' hpre hagree
  refine ⟨fun c => Cert.KernelIdeal.Gen.W10 m ρ c (Proc.devRef .tc Cert.KernelIdeal.main_v87),
    fun c => Cert.KernelIdeal.Gen.W10 m ρ c (Proc.devRef .tc Cert.KernelIdeal.main_v89),
    Cert.KernelIdeal.RunAll.run m ρ, ?_⟩
  refine (θ_run Cert.ReferenceIdeal.defs _ _).mono (fun r h c => ?_) (Cert.ReferenceIdeal.Value.run (F := Ideal) m' ρ')
  obtain ⟨h149, h197, hargs⟩ := h c
  obtain ⟨g0, g1, g2, g3, g4, g5, g6, g7, g8, g9, g10⟩ := hagree c
  obtain ⟨r0, r2, r3, r4, r5, r6, r7, r8, r9, r10⟩ := Cert.Finite.entries_real _ _ _ _ _ _ _ _ _ _ _ (hpre c)
  refine ⟨h149.trans ?_, h197.trans ?_, hargs⟩
  · rw [Cert.ReferenceIdeal.Read.val_main_v149_eq, g0, g1, g2, g3, g4, g5, g6, g7, g8]
    funext j
    obtain ⟨n, q, rfl⟩ : ∃ (n : Fin 50000) (q : Fin 64), j = ix2 n q := ⟨j 0, j 1, eq_ix2 j⟩
    refine (Cert.ReferenceIdeal.RefValue.ref_out0 _ _ _ _ _ _ _ _ _ n q).trans ?_
    refine Eq.trans ?_ (Cert.KernelIdeal.Chain.out0_apply m ρ c n q).symm
    exact congrFun (congrFun (outR_eq_outK _ _ _ _ _ _ _ _ _ r2 r0 r3 r4 r5 r6 r7) n) q
  · rw [Cert.ReferenceIdeal.Read.val_main_v197_eq, g0, g1, g2, g3, g4, g5, g6, g9, g10]
    funext j
    obtain ⟨n, q, rfl⟩ : ∃ (n : Fin 50000) (q : Fin 64), j = ix2 n q := ⟨j 0, j 1, eq_ix2 j⟩
    refine (Cert.ReferenceIdeal.RefValue.ref_out1 _ _ _ _ _ _ _ _ _ n q).trans ?_
    refine Eq.trans ?_ (Cert.KernelIdeal.Chain.out1_apply m ρ c n q).symm
    exact congrFun (congrFun (outR_eq_outK _ _ _ _ _ _ _ _ _ r2 r0 r3 r4 r5 r6 r9) n) q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
